-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x11 : Shape := ⟨2, ![100000, 11]⟩
abbrev S2x3200000 : Shape := ⟨2, ![2, 3200000]⟩
abbrev S11x16 : Shape := ⟨2, ![11, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S_ : Shape := ⟨0, ![]⟩

class Facts : Prop where
  bcast_S_S100000x11 : S_.BroadcastsInDim S100000x11 (![] : Fin 0 → Fin S100000x11.rank)
  reducesTo_S100000x11_S_d0_1 : S100000x11.ReducesTo [0, 1] S_
  h_S_ : 0 < S_.numel
  bcast_S_S11x16 : S_.BroadcastsInDim S11x16 (![] : Fin 0 → Fin S11x16.rank)
  reducesTo_S11x16_S_d0_1 : S11x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S32 .f32) (main_arg6 : FVec F S32x64 .f32) (main_arg7 : FVec F S64 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x64 .f32 := Host.absf main_arg6
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x11 .f32) (main_arg1 : IVec S2x3200000 32) (main_arg2 : FVec F S11x16 .f32) (main_arg3 : FVec F S16 .f32) (main_arg4 : FVec F S16x32 .f32) (main_arg5 : FVec F S32 .f32) (main_arg6 : FVec F S32x64 .f32) (main_arg7 : FVec F S64 .f32) : IVec S_ 1 :=
  let main_v0 : FVec F S100000x11 .f32 := Host.absf main_arg0
  let main_cst : FVec F S_ .f32 := constant S_ .f32 0x7F800000#32
  let main_v1 : FVec F S100000x11 .f32 := broadcastInDim S100000x11 ![] bcast_S_S100000x11 main_cst
  let main_v2 : IVec S100000x11 1 := cmpf .olt main_v0 main_v1
  let main_c : IVec S_ 1 := constantI S_ 1 1#1
  let main_v3 : IVec S_ 1 := (fun x v => Host.reduce IntOp.andi x v reducesTo_S100000x11_S_d0_1 h_S_) main_v2 main_c
  let main_v4 : FVec F S11x16 .f32 := Host.absf main_arg2
  let main_cst_0 : FVec F S_ .f32 := constant S_ .f32 0x7F800000#32
  let main_v5 : FVec F S11x16 .f32 := broadcastInDim S11x16 ![] bcast_S_S11x16 main_cst_0
  let main_v6 : IVec S11x16 1 := cmpf .olt main_v4 main_v5
  let main_c_1 : IVec S_ 1 := constantI S_ 1 1#1
  let main_v7 : IVec S_ 1 := (fun x v => Host.reduce IntOp.andi x v reducesTo_S11x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg4
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg5 main_arg6 main_arg7 main_v13 main_v16
-- ==== Kernel.lean ====
abbrev S100000x11 : Shape := ⟨2, ![100000, 11]⟩
abbrev S2x3200000 : Shape := ⟨2, ![2, 3200000]⟩
abbrev S11x16 : Shape := ⟨2, ![11, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x11 : Shape := ⟨2, ![5000, 11]⟩
abbrev S5000x16 : Shape := ⟨2, ![5000, 16]⟩
abbrev S3300000x16 : Shape := ⟨2, ![3300000, 16]⟩
abbrev S1x16 : Shape := ⟨2, ![1, 16]⟩
abbrev S100000x32 : Shape := ⟨2, ![100000, 32]⟩
abbrev S5000x32 : Shape := ⟨2, ![5000, 32]⟩
abbrev S3300000x32 : Shape := ⟨2, ![3300000, 32]⟩
abbrev S1x32 : Shape := ⟨2, ![1, 32]⟩
abbrev S100000x64 : Shape := ⟨2, ![100000, 64]⟩
abbrev S5000x64 : Shape := ⟨2, ![5000, 64]⟩
abbrev S3300000x64 : Shape := ⟨2, ![3300000, 64]⟩
abbrev S1x64 : Shape := ⟨2, ![1, 64]⟩

abbrev nBuf : Space → Nat
  | .hbm => 103
  | .vmem => 30
  | .smem => 0
  | _ => 0

abbrev bufTy : (tb : Table) → Fin (tcTables nBuf tb) → BufTy
  | .hbm, ⟨0, _⟩ => ⟨S100000x11, .f32⟩
  | .hbm, ⟨1, _⟩ => ⟨S2x3200000, .i32⟩
  | .hbm, ⟨2, _⟩ => ⟨S11x16, .f32⟩
  | .hbm, ⟨3, _⟩ => ⟨S16, .f32⟩
  | .hbm, ⟨4, _⟩ => ⟨S16x32, .f32⟩
  | .hbm, ⟨5, _⟩ => ⟨S32, .f32⟩
  | .hbm, ⟨6, _⟩ => ⟨S32x64, .f32⟩
  | .hbm, ⟨7, _⟩ => ⟨S64, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S3300000x1, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x16, .f32⟩
  | .hbm, ⟨60, _⟩ => ⟨S3300000x16, .f32⟩
  | .hbm, ⟨61, _⟩ => ⟨S_, .f32⟩
  | .hbm, ⟨62, _⟩ => ⟨S100000x16, .f32⟩
  | .hbm, ⟨63, _⟩ => ⟨S3300000x1, .i32⟩
  | .hbm, ⟨64, _⟩ => ⟨S100000x16, .f32⟩
  | .hbm, ⟨65, _⟩ => ⟨S1x16, .f32⟩
  | .hbm, ⟨66, _⟩ => ⟨S100000x16, .f32⟩
  | .hbm, ⟨67, _⟩ => ⟨S100000x32, .f32⟩
  | .hbm, ⟨68, _⟩ => ⟨S_, .i32⟩
  | .hbm, ⟨69, _⟩ => ⟨S3300000, .i32⟩
  | .hbm, ⟨70, _⟩ => ⟨S3300000, .i1⟩
  | .hbm, ⟨71, _⟩ => ⟨S_, .i32⟩
  | .hbm, ⟨72, _⟩ => ⟨S3300000, .i32⟩
  | .hbm, ⟨73, _⟩ => ⟨S3300000, .i32⟩
  | .hbm, ⟨74, _⟩ => ⟨S3300000, .i32⟩
  | .hbm, ⟨75, _⟩ => ⟨S3300000x1, .i32⟩
  | .hbm, ⟨76, _⟩ => ⟨S3300000x32, .f32⟩
  | .hbm, ⟨77, _⟩ => ⟨S3300000x32, .f32⟩
  | .hbm, ⟨78, _⟩ => ⟨S3300000x32, .f32⟩
  | .hbm, ⟨79, _⟩ => ⟨S_, .f32⟩
  | .hbm, ⟨80, _⟩ => ⟨S100000x32, .f32⟩
  | .hbm, ⟨81, _⟩ => ⟨S3300000x1, .i32⟩
  | .hbm, ⟨82, _⟩ => ⟨S100000x32, .f32⟩
  | .hbm, ⟨83, _⟩ => ⟨S1x32, .f32⟩
  | .hbm, ⟨84, _⟩ => ⟨S100000x32, .f32⟩
  | .hbm, ⟨85, _⟩ => ⟨S100000x64, .f32⟩
  | .hbm, ⟨86, _⟩ => ⟨S_, .i32⟩
  | .hbm, ⟨87, _⟩ => ⟨S3300000, .i32⟩
  | .hbm, ⟨88, _⟩ => ⟨S3300000, .i1⟩
  | .hbm, ⟨89, _⟩ => ⟨S_, .i32⟩
  | .hbm, ⟨90, _⟩ => ⟨S3300000, .i32⟩
  | .hbm, ⟨91, _⟩ => ⟨S3300000, .i32⟩
  | .hbm, ⟨92, _⟩ => ⟨S3300000, .i32⟩
  | .hbm, ⟨93, _⟩ => ⟨S3300000x1, .i32⟩
  | .hbm, ⟨94, _⟩ => ⟨S3300000x64, .f32⟩
  | .hbm, ⟨95, _⟩ => ⟨S3300000x64, .f32⟩
  | .hbm, ⟨96, _⟩ => ⟨S3300000x64, .f32⟩
  | .hbm, ⟨97, _⟩ => ⟨S_, .f32⟩
  | .hbm, ⟨98, _⟩ => ⟨S100000x64, .f32⟩
  | .hbm, ⟨99, _⟩ => ⟨S3300000x1, .i32⟩
  | .hbm, ⟨100, _⟩ => ⟨S100000x64, .f32⟩
  | .hbm, ⟨101, _⟩ => ⟨S1x64, .f32⟩
  | .hbm, ⟨102, _⟩ => ⟨S100000x64, .f32⟩
  | .local _ .vmem, ⟨0, _⟩ => ⟨S5000x11, .f32⟩
  | .local _ .vmem, ⟨1, _⟩ => ⟨S5000x11, .f32⟩
  | .local _ .vmem, ⟨2, _⟩ => ⟨S11x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S16x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | .local _ .vmem, ⟨22, _⟩ => ⟨S32x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S100000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_12 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S11x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x11_S5000x11_0_0 : ∀ a, (![0, 0] : Fin 2 → Nat) a + S5000x11.size a ≤ S5000x11.size a
  h_S5000x11 : 0 < S5000x11.numel
  bitsLt_bf16_f32 : FTy.bits .bf16 < FTy.bits .f32
  inb_S11x16_S11x16_0_0 : ∀ a, (![0, 0] : Fin 2 → Nat) a + S11x16.size a ≤ S11x16.size a
  h_S11x16 : 0 < S11x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x32_S16x32_0_0 : ∀ a, (![0, 0] : Fin 2 → Nat) a + S16x32.size a ≤ S16x32.size a
  h_S16x32 : 0 < S16x32.numel
  inb_S5000x32_S5000x32_0_0 : ∀ a, (![0, 0] : Fin 2 → Nat) a + S5000x32.size a ≤ S5000x32.size a
  h_S5000x32 : 0 < S5000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x64_S32x64_0_0 : ∀ a, (![0, 0] : Fin 2 → Nat) a + S32x64.size a ≤ S32x64.size a
  h_S32x64 : 0 < S32x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x11_S11x16_S5000x16_1_0_0_1_n_n_wf : DotDims.WF S5000x11 S11x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x32_S5000x32_1_0_0_1_n_n_wf : DotDims.WF S5000x16 S16x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S5000x32_S32x64_S5000x64_1_0_0_1_n_n_wf : DotDims.WF S5000x32 S32x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x11.size a ≤ S100000x11.size a
  hwx0_0 : ∀ i : grid0.Coords, EltTy.bits .f32 = 32 ∨ (Rect.block (s := S100000x11) S5000x11.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S11x16.size a ≤ S11x16.size a
  hwx0_1 : ∀ i : grid0.Coords, EltTy.bits .f32 = 32 ∨ (Rect.block (s := S11x16) S11x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x32.size a ≤ S16x32.size a
  hwx2_1 : ∀ i : grid2.Coords, EltTy.bits .f32 = 32 ∨ (Rect.block (s := S16x32) S16x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x64.size a ≤ S32x64.size a
  hwx4_1 : ∀ i : grid4.Coords, EltTy.bits .f32 = 32 ∨ (Rect.block (s := S32x64) S32x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x11_S11x16_S5000x16_1_0_0_1_n_n : DotDims S5000x11 S11x16 S5000x16 where
  lhsContracting := [1]
  rhsContracting := [0]
  lhsNonContracting := [0]
  rhsNonContracting := [1]
  lhsBatch := []
  rhsBatch := []
  wf := dot_S5000x11_S11x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

abbrev win0_0 : Pipeline.Window sig grid0 :=
  Pipeline.Window.ofSpec (Memref.whole main_arg0) S5000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S11x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S32x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x11 : Shape := ⟨2, ![100000, 11]⟩
abbrev S2x3200000 : Shape := ⟨2, ![2, 3200000]⟩
abbrev S11x16 : Shape := ⟨2, ![11, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x32 : Shape := ⟨2, ![100000, 32]⟩
abbrev S3300000x32 : Shape := ⟨2, ![3300000, 32]⟩
abbrev S1x32 : Shape := ⟨2, ![1, 32]⟩
abbrev S100000x64 : Shape := ⟨2, ![100000, 64]⟩
abbrev S3300000x64 : Shape := ⟨2, ![3300000, 64]⟩
abbrev S1x64 : Shape := ⟨2, ![1, 64]⟩

abbrev nBuf : Space → Nat
  | .hbm => 194
  | .vmem => 0
  | .smem => 0
  | _ => 0

abbrev hbmTy0_0 (i : Nat) : BufTy := match i % 128 with
  | 0 => ⟨S100000x11, .f32⟩
  | 1 => ⟨S2x3200000, .i32⟩
  | 2 => ⟨S11x16, .f32⟩
  | 3 => ⟨S16, .f32⟩
  | 4 => ⟨S16x32, .f32⟩
  | 5 => ⟨S32, .f32⟩
  | 6 => ⟨S32x64, .f32⟩
  | 7 => ⟨S64, .f32⟩
  | 8 => ⟨S100000, .i32⟩
  | 9 => ⟨S1x3200000, .i32⟩
  | 10 => ⟨S3200000, .i32⟩
  | 11 => ⟨S3300000, .i32⟩
  | 12 => ⟨S1x3200000, .i32⟩
  | 13 => ⟨S3200000, .i32⟩
  | 14 => ⟨S3300000, .i32⟩
  | 15 => ⟨S_, .f32⟩
  | 16 => ⟨S3300000, .f32⟩
  | 17 => ⟨S_, .f32⟩
  | 18 => ⟨S100000, .f32⟩
  | 19 => ⟨S3300000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S3300000, .i32⟩
  | 31 => ⟨S3300000, .i1⟩
  | 32 => ⟨S_, .i32⟩
  | 33 => ⟨S3300000, .i32⟩
  | 34 => ⟨S3300000, .i32⟩
  | 35 => ⟨S3300000, .i32⟩
  | 36 => ⟨S3300000x1, .i32⟩
  | 37 => ⟨S3300000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S3300000, .f32⟩
  | 48 => ⟨S100000x16, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x16, .f32⟩
  | 58 => ⟨S3300000x1, .f32⟩
  | 59 => ⟨S3300000x16, .f32⟩
  | 60 => ⟨S3300000x16, .f32⟩
  | 61 => ⟨S_, .f32⟩
  | 62 => ⟨S100000x16, .f32⟩
  | 63 => ⟨S3300000x1, .i32⟩
  | 64 => ⟨S100000x16, .f32⟩
  | 65 => ⟨S1x16, .f32⟩
  | 66 => ⟨S100000x16, .f32⟩
  | 67 => ⟨S100000x16, .f32⟩
  | 68 => ⟨S_, .f32⟩
  | 69 => ⟨S100000x16, .f32⟩
  | 70 => ⟨S100000x16, .f32⟩
  | 71 => ⟨S100000, .i32⟩
  | 72 => ⟨S1x3200000, .i32⟩
  | 73 => ⟨S3200000, .i32⟩
  | 74 => ⟨S3300000, .i32⟩
  | 75 => ⟨S1x3200000, .i32⟩
  | 76 => ⟨S3200000, .i32⟩
  | 77 => ⟨S3300000, .i32⟩
  | 78 => ⟨S_, .f32⟩
  | 79 => ⟨S3300000, .f32⟩
  | 80 => ⟨S_, .f32⟩
  | 81 => ⟨S100000, .f32⟩
  | 82 => ⟨S3300000x1, .i32⟩
  | 83 => ⟨S100000, .f32⟩
  | 84 => ⟨S_, .f32⟩
  | 85 => ⟨S100000, .f32⟩
  | 86 => ⟨S100000, .i1⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S3300000, .i32⟩
  | 94 => ⟨S3300000, .i1⟩
  | 95 => ⟨S_, .i32⟩
  | 96 => ⟨S3300000, .i32⟩
  | 97 => ⟨S3300000, .i32⟩
  | 98 => ⟨S3300000, .i32⟩
  | 99 => ⟨S3300000x1, .i32⟩
  | 100 => ⟨S3300000, .f32⟩
  | 101 => ⟨S_, .i32⟩
  | 102 => ⟨S3300000, .i32⟩
  | 103 => ⟨S3300000, .i1⟩
  | 104 => ⟨S_, .i32⟩
  | 105 => ⟨S3300000, .i32⟩
  | 106 => ⟨S3300000, .i32⟩
  | 107 => ⟨S3300000, .i32⟩
  | 108 => ⟨S3300000x1, .i32⟩
  | 109 => ⟨S3300000, .f32⟩
  | 110 => ⟨S3300000, .f32⟩
  | 111 => ⟨S100000x32, .f32⟩
  | 112 => ⟨S_, .i32⟩
  | 113 => ⟨S3300000, .i32⟩
  | 114 => ⟨S3300000, .i1⟩
  | 115 => ⟨S_, .i32⟩
  | 116 => ⟨S3300000, .i32⟩
  | 117 => ⟨S3300000, .i32⟩
  | 118 => ⟨S3300000, .i32⟩
  | 119 => ⟨S3300000x1, .i32⟩
  | 120 => ⟨S3300000x32, .f32⟩
  | 121 => ⟨S3300000x1, .f32⟩
  | 122 => ⟨S3300000x32, .f32⟩
  | 123 => ⟨S3300000x32, .f32⟩
  | 124 => ⟨S_, .f32⟩
  | 125 => ⟨S100000x32, .f32⟩
  | 126 => ⟨S3300000x1, .i32⟩
  | 127 => ⟨S100000x32, .f32⟩
  | _ => ⟨S100000x11, .f32⟩

abbrev hbmTy0_1 (i : Nat) : BufTy := match i % 128 with
  | 0 => ⟨S1x32, .f32⟩
  | 1 => ⟨S100000x32, .f32⟩
  | 2 => ⟨S100000x32, .f32⟩
  | 3 => ⟨S_, .f32⟩
  | 4 => ⟨S100000x32, .f32⟩
  | 5 => ⟨S100000x32, .f32⟩
  | 6 => ⟨S100000, .i32⟩
  | 7 => ⟨S1x3200000, .i32⟩
  | 8 => ⟨S3200000, .i32⟩
  | 9 => ⟨S3300000, .i32⟩
  | 10 => ⟨S1x3200000, .i32⟩
  | 11 => ⟨S3200000, .i32⟩
  | 12 => ⟨S3300000, .i32⟩
  | 13 => ⟨S_, .f32⟩
  | 14 => ⟨S3300000, .f32⟩
  | 15 => ⟨S_, .f32⟩
  | 16 => ⟨S100000, .f32⟩
  | 17 => ⟨S3300000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S3300000, .i32⟩
  | 29 => ⟨S3300000, .i1⟩
  | 30 => ⟨S_, .i32⟩
  | 31 => ⟨S3300000, .i32⟩
  | 32 => ⟨S3300000, .i32⟩
  | 33 => ⟨S3300000, .i32⟩
  | 34 => ⟨S3300000x1, .i32⟩
  | 35 => ⟨S3300000, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S3300000, .f32⟩
  | 46 => ⟨S100000x64, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x64, .f32⟩
  | 56 => ⟨S3300000x1, .f32⟩
  | 57 => ⟨S3300000x64, .f32⟩
  | 58 => ⟨S3300000x64, .f32⟩
  | 59 => ⟨S_, .f32⟩
  | 60 => ⟨S100000x64, .f32⟩
  | 61 => ⟨S3300000x1, .i32⟩
  | 62 => ⟨S100000x64, .f32⟩
  | 63 => ⟨S1x64, .f32⟩
  | 64 => ⟨S100000x64, .f32⟩
  | 65 => ⟨S100000x64, .f32⟩
  | _ => ⟨S100000x11, .f32⟩

abbrev hbmTy (i : Nat) : BufTy := match i / 128 with
  | 0 => hbmTy0_0 i
  | 1 => hbmTy0_1 i
  | _ => ⟨S100000x11, .f32⟩

abbrev bufTy : (tb : Table) → Fin (tcTables nBuf tb) → BufTy
  | .hbm, ⟨i, _⟩ => hbmTy i
  | _, _ => ⟨S100000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_cst_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v62 : Ref sig .tc := ⟨.hbm, 91, rfl⟩
abbrev main_c_13 : Ref sig .tc := ⟨.hbm, 92, rfl⟩
abbrev main_v63 : Ref sig .tc := ⟨.hbm, 93, rfl⟩
abbrev main_v64 : Ref sig .tc := ⟨.hbm, 94, rfl⟩
abbrev main_c_14 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_15 : Ref sig .tc := ⟨.hbm, 101, rfl⟩
abbrev main_v70 : Ref sig .tc := ⟨.hbm, 102, rfl⟩
abbrev main_v71 : Ref sig .tc := ⟨.hbm, 103, rfl⟩
abbrev main_c_16 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_17 : Ref sig .tc := ⟨.hbm, 112, rfl⟩
abbrev main_v79 : Ref sig .tc := ⟨.hbm, 113, rfl⟩
abbrev main_v80 : Ref sig .tc := ⟨.hbm, 114, rfl⟩
abbrev main_c_18 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call3_cst : Ref sig .tc := ⟨.hbm, 131, rfl⟩
abbrev main_call3_v0 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_20 : Ref sig .tc := ⟨.hbm, 141, rfl⟩
abbrev main_v103 : Ref sig .tc := ⟨.hbm, 142, rfl⟩
abbrev main_cst_21 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_22 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_23 : Ref sig .tc := ⟨.hbm, 151, rfl⟩
abbrev main_call4_v0 : Ref sig .tc := ⟨.hbm, 152, rfl⟩
abbrev main_call4_v1 : Ref sig .tc := ⟨.hbm, 153, rfl⟩
abbrev main_v110 : Ref sig .tc := ⟨.hbm, 154, rfl⟩
abbrev main_c_24 : Ref sig .tc := ⟨.hbm, 155, rfl⟩
abbrev main_v111 : Ref sig .tc := ⟨.hbm, 156, rfl⟩
abbrev main_v112 : Ref sig .tc := ⟨.hbm, 157, rfl⟩
abbrev main_c_25 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_c_26 : Ref sig .tc := ⟨.hbm, 164, rfl⟩
abbrev main_v118 : Ref sig .tc := ⟨.hbm, 165, rfl⟩
abbrev main_v119 : Ref sig .tc := ⟨.hbm, 166, rfl⟩
abbrev main_c_27 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_c_28 : Ref sig .tc := ⟨.hbm, 175, rfl⟩
abbrev main_v127 : Ref sig .tc := ⟨.hbm, 176, rfl⟩
abbrev main_v128 : Ref sig .tc := ⟨.hbm, 177, rfl⟩
abbrev main_c_29 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_cst_30 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x11_S11x16_S100000x16_1_0_0_1_n_n_wf : DotDims.WF S100000x11 S11x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x32_S100000x32_1_0_0_1_n_n_wf : DotDims.WF S100000x16 S16x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x64_S100000x64_1_0_0_1_n_n_wf : DotDims.WF S100000x32 S32x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x11_S11x16_S100000x16_1_0_0_1_n_n : DotDims S100000x11 S11x16 S100000x16 where
  lhsContracting := [1]
  rhsContracting := [0]
  lhsNonContracting := [0]
  rhsNonContracting := [1]
  lhsBatch := []
  rhsBatch := []
  wf := dot_S100000x11_S11x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.KernelRun.lean ====
/-
  The idealized kernel program's run with its result array named.

  The program is twelve segments: six stretches of host operations and six pipelined regions. The buffer contents at
  each segment boundary are a fold from the launch memory: a host stretch applies its operations, a region replaces
  each of its output arrays by what its write-backs leave and keeps every other buffer. Every weakly fair execution
  terminates with each unscoped buffer at the last boundary's contents; read at the result buffer this names the
  program's result as the last fold's value there, and read at an argument it is the launch contents.
-/
import proofs.«155101_j19344532701547_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem run : θ_run defs (onTc (τ := τ) (main (F := F))) ⟨m, fun _ => 0, ρ⟩ (fun r => ∀ c : Dev nD,
      r.2.mem ((c.tc : Thread nD τ).loc main_v75) = W12 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v75 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.RunValue

end
-- ==== Proof.KernelEdges.lean ====
/-
  The graph side of the three-layer graph convolution, as named functions of the edge list (the kernel program's spelling).

  The edge list `ei` has a row of source nodes and a row of target nodes; every node is appended once to both rows
  (the self loops). A node's degree is the number of edges that end in it; the weight of an edge is
  d(source)^(-1/2) · d(target)^(-1/2), with d^(-1/2) read as 0 where d is not positive. One layer's aggregation takes a
  node-feature array `h`, gathers the row of each edge's source, multiplies it by the edge's weight and adds it into
  the row of the edge's target. Row numbers are signed words: a negative one is first shifted up by the node count.
-/
import proofs.«155101_j19344532701547_1_alg».proof.Proof.Gen.KernelIdeal

noncomputable section

namespace Cert.KernelIdeal.Net

open Idealize.ShloMosaic Cert.KernelIdeal Cert.KernelIdeal.Gen

variable {F : FTy → Type} [FloatOps F]

/-- The source node of every edge, then every node once. -/
def srcOf (ei : (⟨S2x3200000, .i32⟩ : BufTy).Contents (Elt F)) : (⟨S3300000, .i32⟩ : BufTy).Contents (Elt F) :=
  concatenate S3300000 0 [⟨S3200000, shapeCast _ (extractStridedSlice S1x3200000 ![0, 0] ei slices_S2x3200000_S1x3200000_0_0) shapeCasts_S1x3200000_S3200000⟩, ⟨S100000, iotaInDim S100000 32 0⟩] concatenates_S3200000_S100000_S3300000_d0

/-- The target node of every edge, then every node once. -/
def dstOf (ei : (⟨S2x3200000, .i32⟩ : BufTy).Contents (Elt F)) : (⟨S3300000, .i32⟩ : BufTy).Contents (Elt F) :=
  concatenate S3300000 0 [⟨S3200000, shapeCast _ (extractStridedSlice S1x3200000 ![1, 0] ei slices_S2x3200000_S1x3200000_1_0) shapeCasts_S1x3200000_S3200000⟩, ⟨S100000, iotaInDim S100000 32 0⟩] concatenates_S3200000_S100000_S3300000_d0

/-- Signed row numbers as a column, the negative ones shifted up by the node count. -/
def rowCol (v : (⟨S3300000, .i32⟩ : BufTy).Contents (Elt F)) : (⟨S3300000x1, .i32⟩ : BufTy).Contents (Elt F) :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- Every node's degree: a one added into the target of every edge. -/
def degOf (dst : (⟨S3300000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant (F := F) S_ .f32 0x00000000#32))
    (broadcastInDim S3300000x1 ![0] bcast_S3300000_S3300000x1_0 dst)
    (broadcastInDim S3300000 ![] bcast_S_S3300000 (constant (F := F) S_ .f32 0x3F800000#32))

/-- d^(-1/2) where the degree d is positive, 0 elsewhere. -/
def dinvOf (dst : (⟨S3300000, .i32⟩ : BufTy).Contents (Elt F)) : (⟨S100000, .f32⟩ : BufTy).Contents (Elt F) :=
  select (cmpf (F := F) .ogt (degOf dst) (broadcastInDim S100000 ![] bcast_S_S100000 (constant (F := F) S_ .f32 0x00000000#32)))
    (Host.rsqrt (degOf dst))
    (broadcastInDim S100000 ![] bcast_S_S100000 (id (constant (F := F) S_ .f32 0x00000000#32)))

/-- The edge weights d(source)^(-1/2) · d(target)^(-1/2), as a column. -/
def normCol (src dst : (⟨S3300000, .i32⟩ : BufTy).Contents (Elt F)) : (⟨S3300000x1, .f32⟩ : BufTy).Contents (Elt F) :=
  broadcastInDim S3300000x1 ![0] bcast_S3300000_S3300000x1_0
    (mulf (Host.gather gather_S100000_S3300000x1_S3300000_n_0_n_n_0_1_1 (dinvOf dst) (rowCol src))
      (Host.gather gather_S100000_S3300000x1_S3300000_n_0_n_n_0_1_1 (dinvOf dst) (rowCol dst)))

/-- One layer's aggregation at width 16: the weighted source rows summed into the target rows. -/
def agg16 (h : (⟨S100000x16, .f32⟩ : BufTy).Contents (Elt F)) (src dst : (⟨S3300000, .i32⟩ : BufTy).Contents (Elt F))
    (nc : (⟨S3300000x1, .f32⟩ : BufTy).Contents (Elt F)) : (⟨S100000x16, .f32⟩ : BufTy).Contents (Elt F) :=
  Host.scatterAdd scatter_S100000x16_S3300000x1_S3300000x16_1_0_0_1
    (broadcastInDim S100000x16 ![] bcast_S_S100000x16 (constant (F := F) S_ .f32 0x00000000#32))
    (broadcastInDim S3300000x1 ![0] bcast_S3300000_S3300000x1_0 dst)
    (mulf (Host.gather gather_S100000x16_S3300000x1_S3300000x16_1_0_n_n_0_1_116 h (rowCol src))
      (broadcastInDim S3300000x16 ![0, 1] bcast_S3300000x1_S3300000x16_0_1 nc))

/-- One layer's aggregation at width 32: the weighted source rows summed into the target rows. -/
def agg32 (h : (⟨S100000x32, .f32⟩ : BufTy).Contents (Elt F)) (src dst : (⟨S3300000, .i32⟩ : BufTy).Contents (Elt F))
    (nc : (⟨S3300000x1, .f32⟩ : BufTy).Contents (Elt F)) : (⟨S100000x32, .f32⟩ : BufTy).Contents (Elt F) :=
  Host.scatterAdd scatter_S100000x32_S3300000x1_S3300000x32_1_0_0_1
    (broadcastInDim S100000x32 ![] bcast_S_S100000x32 (constant (F := F) S_ .f32 0x00000000#32))
    (broadcastInDim S3300000x1 ![0] bcast_S3300000_S3300000x1_0 dst)
    (mulf (Host.gather gather_S100000x32_S3300000x1_S3300000x32_1_0_n_n_0_1_132 h (rowCol src))
      (broadcastInDim S3300000x32 ![0, 1] bcast_S3300000x1_S3300000x32_0_1 nc))

/-- One layer's aggregation at width 64: the weighted source rows summed into the target rows. -/
def agg64 (h : (⟨S100000x64, .f32⟩ : BufTy).Contents (Elt F)) (src dst : (⟨S3300000, .i32⟩ : BufTy).Contents (Elt F))
    (nc : (⟨S3300000x1, .f32⟩ : BufTy).Contents (Elt F)) : (⟨S100000x64, .f32⟩ : BufTy).Contents (Elt F) :=
  Host.scatterAdd scatter_S100000x64_S3300000x1_S3300000x64_1_0_0_1
    (broadcastInDim S100000x64 ![] bcast_S_S100000x64 (constant (F := F) S_ .f32 0x00000000#32))
    (broadcastInDim S3300000x1 ![0] bcast_S3300000_S3300000x1_0 dst)
    (mulf (Host.gather gather_S100000x64_S3300000x1_S3300000x64_1_0_n_n_0_1_164 h (rowCol src))
      (broadcastInDim S3300000x64 ![0, 1] bcast_S3300000x1_S3300000x64_0_1 nc))

end Cert.KernelIdeal.Net

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.LibDenseRead.lean ====
/-
  Dense-layer pieces on the host read at one entry, at the extended reals.

  * The host's plain matrix product of an `m × k` by a `k × n` array holds at entry `(a, b)` the sum over the
    contracted position `c` of `A[a,c] · B[c,b]` (no accumulator, whatever the schedule key).
  * A bias vector `[n]` placed as the row `[1, n]` and repeated down `m` rows holds at `(p, c)` the vector's entry `c`.
  * The zero word filled into any shape holds `0` at every index.
-/
import Idealize.ShloMosaic.PureOps.Ideal.Laws
import Idealize.ShloMosaic.Lib.ValueIdx
import Idealize.ShloMosaic.Lib.Pipeline.Value
import proofs.«155101_j19344532701547_1_alg».proof.Proof.LibPlainMatmul

noncomputable section

open scoped BigOperators

namespace Idealize.ShloMosaic.DenseRead

open Idealize.ShloMosaic Idealize.ShloMosaic.ValueIdx Idealize.ShloMosaic.PlainMatmul

variable {m k n : Nat}

/-- **The host's plain product at an entry**: `∑ c, A[a,c] · B[c,b]`. -/
theorem dotGeneral_apply {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

/-- A bias vector placed as a row and repeated down the rows, at `(p, c)`: the vector's entry `c`. -/
theorem biasRows_apply {α : Type} (x : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![m, n]⟩ (![0, 1] : Fin 2 → Fin 2)) (p : Fin m) (c : Fin n) :
    broadcastInDim ⟨2, ![m, n]⟩ ![0, 1] h2 (broadcastInDim ⟨2, ![1, n]⟩ ![1] h1 x) (ix2 p c) = x (ix1 c) := by
  refine (broadcastInDim_apply _ h2 _ (ix2 p c) (ix2 (0 : Fin 1) c) (fun a => ?_)).trans
    (broadcastInDim_apply _ h1 x (ix2 (0 : Fin 1) c) (ix1 c) (fun a => ?_))
  · match a with
    | ⟨0, _⟩ => show 0 = if (1 : Nat) = 1 then 0 else p.val; rw [if_pos rfl]
    | ⟨1, _⟩ =>
      show c.val = if n = 1 then 0 else c.val
      split
      · have := c.isLt; omega
      · rfl
  · match a with
    | ⟨0, _⟩ =>
      show c.val = if n = 1 then 0 else c.val
      split
      · have := c.isLt; omega
      · rfl

/-- The zero word filled into a shape, at any index: `0`. -/
theorem zeroFill_apply {s : Shape} (h : (⟨0, ![]⟩ : Shape).BroadcastsInDim s (![] : Fin 0 → Fin s.rank)) (i : s.Idx) :
    broadcastInDim s ![] h (constant (F := Ideal) ⟨0, ![]⟩ .f32 0x00000000#32) i = (0 : EReal) :=
  (broadcastInDim_apply _ h _ i ix0 (fun a => a.elim0)).trans Ideal.ofBits_zero_f32

end Idealize.ShloMosaic.DenseRead

end
-- ==== Proof.RegionProducts.lean ====
/-
  The three pipelined matrix products of the kernel program, each read as one whole array: a row-tiled product leaves in its output array the host's plain product of the two whole operand arrays.

  Each region runs over 20 points. At point t the body multiplies rows [5000·t, 5000·t + 5000) of the left operand by the whole right operand into a zero accumulator and stores the 5000-row block of the output. Entry (p, q) of that block and entry (5000·t + p, q) of the host's product are the same sum over the contracted position c of A[5000·t + p, c]·B[c, q]; the 20 blocks cover the 100000 rows, so the output array is the host's product.
-/
import proofs.«155101_j19344532701547_1_alg».proof.Proof.Gen.KernelIdeal.Frame
import proofs.«155101_j19344532701547_1_alg».proof.Proof.LibDenseRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem Idealize.ShloMosaic.ValueIdx
open Cert.KernelIdeal Cert.KernelIdeal.Gen
open Idealize.ShloMosaic.Pipeline (Dat)
open scoped BigOperators

/-- The zero offsets of a whole-block access, as the constant function. -/
theorem zero_offsets : (![0, 0] : Fin 2 → Nat) = fun _ => 0 := funext fun a => by fin_cases a <;> rfl

/-! ## Region 0: rows [5000·t, 5000·t + 5000) of a 100000×11 array times the whole 11×16 array, at each of 20 points -/

/-- The body's product at an entry: the sum over the contracted position (the casts to the narrower format are the identity on extended reals). -/
theorem pay0_apply (x0 : Vec Ideal S5000x11 .f32) (x1 : Vec Ideal S11x16 .f32) (p : Fin 5000) (q : Fin 16) :
    k0_pay1 x0 x1 (ix2 p q) = ∑ c : Fin 11, x0 (ix2 p c) * x1 (ix2 c q) := by
  unfold k0_pay1
  exact PlainMatmul.matmul_zero_apply (m := 5000) (k := 11) (n := 16) none x0 x1 p q

/-- The windows' block indices, decided over the 20 points: the left operand's and the output's blocks are at row block t and column block 0, the right operand's at (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of a row block: when row p of the left block is row r of the whole left array and column q of the right block is column q of the whole right array, the body's entry (p, q) is the host product's entry (r, q): both are the sum over c of A[r,c]·B[c,q]. -/
theorem block0_entry (A : FVec Ideal S100000x11 .f32) (B : FVec Ideal S11x16 .f32)
    (x0 : Vec Ideal S5000x11 .f32) (x1 : Vec Ideal S11x16 .f32) (r : Fin 100000) (p : Fin 5000) (q : Fin 16)
    (h0 : ∀ c : Fin 11, x0 (ix2 p c) = A (ix2 r c)) (h1 : ∀ c : Fin 11, x1 (ix2 c q) = B (ix2 c q)) :
    k0_pay1 x0 x1 (ix2 p q)
      = Host.dotGeneral (F := Ideal) (φ₁ := .f32) (φ₂ := .f32) (DotDims.plain 100000 11 16) none A B (ix2 r q) := by
  rw [pay0_apply]
  refine (Finset.sum_congr rfl fun c _ => ?_).trans (DenseRead.dotGeneral_apply (m := 100000) (k := 11) (n := 16) none .single A B r q).symm
  rw [h0, h1]

/-- What point t writes back is block t of the host product of the two whole arrays: entry (p, q) of the block is entry (5000·t + p, q) of the array, the left block's row p is row 5000·t + p of the left array, and the right block is the whole right array. -/
theorem flushed0_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal)
      (Host.dotGeneral (F := Ideal) (φ₁ := .f32) (φ₂ := .f32) (DotDims.plain 100000 11 16) none (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x11) zero_offsets, View.ld_unit_zero (S := S11x16) zero_offsets]
  obtain ⟨e0, e1, e2, e3, e4, e5⟩ := idx_facts0 t
  have ht : t.val < 20 := t.isLt.trans_eq N_0
  refine funext fun (y : S5000x16.Idx) => ?_
  obtain ⟨p, q, rfl⟩ : ∃ (p : Fin 5000) (q : Fin 16), y = ix2 p q := ⟨y 0, y 1, eq_ix2 y⟩
  have hp : p.val < 5000 := p.isLt
  have hr : t.val * 5000 + p.val < 100000 := by omega
  have hemb : ((cfg0.win 2).blk t).view.emb (ix2 p q) = ix2 (⟨t.val * 5000 + p.val, hr⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 16 + 1 * q.val = q.val; omega
  show k0_pay1 (iblk0 V c 0 t) (iblk0 V c 1 t) (ix2 p q)
    = Host.dotGeneral (F := Ideal) (φ₁ := .f32) (φ₂ := .f32) (DotDims.plain 100000 11 16) none (V c main_arg0) (V c main_arg2) (((cfg0.win 2).blk t).view.emb (ix2 p q))
  rw [hemb]
  refine block0_entry _ _ _ _ ⟨_, hr⟩ p q (fun k => ?_) (fun k => ?_)
  · show V c main_arg0 (((cfg0.win 0).blk t).view.emb (ix2 p k)) = V c main_arg0 (ix2 (⟨t.val * 5000 + p.val, hr⟩ : Fin 100000) k)
    congr 1
    funext a; apply Fin.ext
    match a with
    | ⟨0, _⟩ => show win0_0.index t (0 : Fin 2) * 5000 + 1 * p.val = t.val * 5000 + p.val; omega
    | ⟨1, _⟩ => show win0_0.index t (1 : Fin 2) * 11 + 1 * k.val = k.val; omega
  · show V c main_arg2 (((cfg0.win 1).blk t).view.emb (ix2 k q)) = V c main_arg2 (ix2 k q)
    congr 1
    funext a; apply Fin.ext
    match a with
    | ⟨0, _⟩ => show win0_1.index t (0 : Fin 2) * 11 + 1 * k.val = k.val; omega
    | ⟨1, _⟩ => show win0_1.index t (1 : Fin 2) * 16 + 1 * q.val = q.val; omega

/-- An index of the output array lies in point t's block iff each coordinate is in the block's range on its axis. -/
theorem mem_blk0 (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v31).slice (win0_2.rect t)).set ↔ _
  rw [View.set_slice_whole, Rect.mem_set_unit]
  exact Iff.rfl

/-- The blocks cover the output array: row r lies in the block of point r / 5000. -/
theorem cover0 (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ : ∃ t : Fin cfg0.N, t.val = (i 0).val / 5000 :=
    ⟨⟨(i 0).val / 5000, by rw [show cfg0.N = 20 from N_0]; omega⟩, rfl⟩
  obtain ⟨e0, e1, e2, e3, e4, e5⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- Region 0 (20 row blocks of 5000): the output array ends at the plain product of the whole 100000×11 and 11×16 arrays. -/
theorem final0 (V : (c : Dev nD) → (b : Ref sig .tc) → Buf (Elt Ideal) ((c : Thread nD τ).loc b)) (c : Dev nD) :
    Eq (α := FVec Ideal S100000x16 .f32) ((dat0 (F := Ideal) V c).arrAt 2 cfg0.N)
      (Host.dotGeneral (F := Ideal) (φ₁ := .f32) (φ₂ := .f32) (DotDims.plain 100000 11 16) none (V c main_arg0) (V c main_arg2)) :=
  (dat0 (F := Ideal) V c).arrAt_eq_of_cover 2 _ (fun t _ => flushed0_eq V c t) cover0

/-! ## Region 2: rows [5000·t, 5000·t + 5000) of a 100000×16 array times the whole 16×32 array, at each of 20 points -/

/-- The body's product at an entry: the sum over the contracted position (the casts to the narrower format are the identity on extended reals, and so is the reshape of the left block to its own shape). -/
theorem pay2_apply (x0 : Vec Ideal S5000x16 .f32) (x1 : Vec Ideal S16x32 .f32) (p : Fin 5000) (q : Fin 32) :
    k2_pay1 x0 x1 (ix2 p q) = ∑ c : Fin 16, x0 (ix2 p c) * x1 (ix2 c q) := by
  unfold k2_pay1
  rw [shapeCast_self x0]
  exact PlainMatmul.matmul_zero_apply (m := 5000) (k := 16) (n := 32) none x0 x1 p q

/-- The windows' block indices, decided over the 20 points: the left operand's and the output's blocks are at row block t and column block 0, the right operand's at (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- One entry of a row block: when row p of the left block is row r of the whole left array and column q of the right block is column q of the whole right array, the body's entry (p, q) is the host product's entry (r, q): both are the sum over c of A[r,c]·B[c,q]. -/
theorem block2_entry (A : FVec Ideal S100000x16 .f32) (B : FVec Ideal S16x32 .f32)
    (x0 : Vec Ideal S5000x16 .f32) (x1 : Vec Ideal S16x32 .f32) (r : Fin 100000) (p : Fin 5000) (q : Fin 32)
    (h0 : ∀ c : Fin 16, x0 (ix2 p c) = A (ix2 r c)) (h1 : ∀ c : Fin 16, x1 (ix2 c q) = B (ix2 c q)) :
    k2_pay1 x0 x1 (ix2 p q)
      = Host.dotGeneral (F := Ideal) (φ₁ := .f32) (φ₂ := .f32) (DotDims.plain 100000 16 32) none A B (ix2 r q) := by
  rw [pay2_apply]
  refine (Finset.sum_congr rfl fun c _ => ?_).trans (DenseRead.dotGeneral_apply (m := 100000) (k := 16) (n := 32) none .single A B r q).symm
  rw [h0, h1]

/-- What point t writes back is block t of the host product of the two whole arrays: entry (p, q) of the block is entry (5000·t + p, q) of the array, the left block's row p is row 5000·t + p of the left array, and the right block is the whole right array. -/
theorem flushed2_eq (V : (c : Dev nD) → (b : Ref sig .tc) → Buf (Elt Ideal) ((c : Thread nD τ).loc b)) (c : Dev nD) (t : Fin cfg2.N) :
    (dat2 (F := Ideal) V c).flushed 2 t = ((cfg2.win 2).blk t).view.read (Elt Ideal)
      (Host.dotGeneral (F := Ideal) (φ₁ := .f32) (φ₂ := .f32) (DotDims.plain 100000 16 32) none (V c main_v45) (V c main_arg4)) := by
  show (cfg2.win 2).cut (grid2.coords t) ((dat2 V c).after 2 t) = _
  rw [after2_2]
  unfold out2_2
  rw [View.canon_unit_zero zero_offsets]
  simp only [View.ld_unit_zero (S := S5000x16) zero_offsets, View.ld_unit_zero (S := S16x32) zero_offsets]
  obtain ⟨e0, e1, e2, e3, e4, e5⟩ := idx_facts2 t
  have ht : t.val < 20 := t.isLt.trans_eq N_2
  refine funext fun (y : S5000x32.Idx) => ?_
  obtain ⟨p, q, rfl⟩ : ∃ (p : Fin 5000) (q : Fin 32), y = ix2 p q := ⟨y 0, y 1, eq_ix2 y⟩
  have hp : p.val < 5000 := p.isLt
  have hr : t.val * 5000 + p.val < 100000 := by omega
  have hemb : ((cfg2.win 2).blk t).view.emb (ix2 p q) = ix2 (⟨t.val * 5000 + p.val, hr⟩ : Fin 100000) q := by
    funext a; apply Fin.ext
    match a with
    | ⟨0, _⟩ => show win2_2.index t (0 : Fin 2) * 5000 + 1 * p.val = t.val * 5000 + p.val; omega
    | ⟨1, _⟩ => show win2_2.index t (1 : Fin 2) * 32 + 1 * q.val = q.val; omega
  show k2_pay1 (iblk2 V c 0 t) (iblk2 V c 1 t) (ix2 p q)
    = Host.dotGeneral (F := Ideal) (φ₁ := .f32) (φ₂ := .f32) (DotDims.plain 100000 16 32) none (V c main_v45) (V c main_arg4) (((cfg2.win 2).blk t).view.emb (ix2 p q))
  rw [hemb]
  refine block2_entry _ _ _ _ ⟨_, hr⟩ p q (fun k => ?_) (fun k => ?_)
  · show V c main_v45 (((cfg2.win 0).blk t).view.emb (ix2 p k)) = V c main_v45 (ix2 (⟨t.val * 5000 + p.val, hr⟩ : Fin 100000) k)
    congr 1
    funext a; apply Fin.ext
    match a with
    | ⟨0, _⟩ => show win2_0.index t (0 : Fin 2) * 5000 + 1 * p.val = t.val * 5000 + p.val; omega
    | ⟨1, _⟩ => show win2_0.index t (1 : Fin 2) * 16 + 1 * k.val = k.val; omega
  · show V c main_arg4 (((cfg2.win 1).blk t).view.emb (ix2 k q)) = V c main_arg4 (ix2 k q)
    congr 1
    funext a; apply Fin.ext
    match a with
    | ⟨0, _⟩ => show win2_1.index t (0 : Fin 2) * 16 + 1 * k.val = k.val; omega
    | ⟨1, _⟩ => show win2_1.index t (1 : Fin 2) * 32 + 1 * q.val = q.val; omega

/-- An index of the output array lies in point t's block iff each coordinate is in the block's range on its axis. -/
theorem mem_blk2 (t : Fin cfg2.N) (i : S100000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v46).slice (win2_2.rect t)).set ↔ _
  rw [View.set_slice_whole, Rect.mem_set_unit]
  exact Iff.rfl

/-- The blocks cover the output array: row r lies in the block of point r / 5000. -/
theorem cover2 (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  obtain ⟨t, ht⟩ : ∃ t : Fin cfg2.N, t.val = (i 0).val / 5000 :=
    ⟨⟨(i 0).val / 5000, by rw [show cfg2.N = 20 from N_2]; omega⟩, rfl⟩
  obtain ⟨e0, e1, e2, e3, e4, e5⟩ := idx_facts2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 32 ≤ (i 1).val ∧ (i 1).val < win2_2.index t (1 : Fin 2) * 32 + 32; omega

/-- Region 2: the output array ends at the plain product of the whole 100000×16 and 16×32 arrays. -/
theorem final2 (V : (c : Dev nD) → (b : Ref sig .tc) → Buf (Elt Ideal) ((c : Thread nD τ).loc b)) (c : Dev nD) :
    Eq (α := FVec Ideal S100000x32 .f32) ((dat2 (F := Ideal) V c).arrAt 2 cfg2.N)
      (Host.dotGeneral (F := Ideal) (φ₁ := .f32) (φ₂ := .f32) (DotDims.plain 100000 16 32) none (V c main_v45) (V c main_arg4)) :=
  (dat2 (F := Ideal) V c).arrAt_eq_of_cover 2 _ (fun t _ => flushed2_eq V c t) cover2

/-! ## Region 4: rows [5000·t, 5000·t + 5000) of a 100000×32 array times the whole 32×64 array, at each of 20 points -/

/-- The body's product at an entry: the sum over the contracted position (the casts to the narrower format are the identity on extended reals, and so is the reshape of the left block to its own shape). -/
theorem pay4_apply (x0 : Vec Ideal S5000x32 .f32) (x1 : Vec Ideal S32x64 .f32) (p : Fin 5000) (q : Fin 64) :
    k4_pay1 x0 x1 (ix2 p q) = ∑ c : Fin 32, x0 (ix2 p c) * x1 (ix2 c q) := by
  unfold k4_pay1
  rw [shapeCast_self x0]
  exact PlainMatmul.matmul_zero_apply (m := 5000) (k := 32) (n := 64) none x0 x1 p q

/-- The windows' block indices, decided over the 20 points: the left operand's and the output's blocks are at row block t and column block 0, the right operand's at (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- One entry of a row block: when row p of the left block is row r of the whole left array and column q of the right block is column q of the whole right array, the body's entry (p, q) is the host product's entry (r, q): both are the sum over c of A[r,c]·B[c,q]. -/
theorem block4_entry (A : FVec Ideal S100000x32 .f32) (B : FVec Ideal S32x64 .f32)
    (x0 : Vec Ideal S5000x32 .f32) (x1 : Vec Ideal S32x64 .f32) (r : Fin 100000) (p : Fin 5000) (q : Fin 64)
    (h0 : ∀ c : Fin 32, x0 (ix2 p c) = A (ix2 r c)) (h1 : ∀ c : Fin 32, x1 (ix2 c q) = B (ix2 c q)) :
    k4_pay1 x0 x1 (ix2 p q)
      = Host.dotGeneral (F := Ideal) (φ₁ := .f32) (φ₂ := .f32) (DotDims.plain 100000 32 64) none A B (ix2 r q) := by
  rw [pay4_apply]
  refine (Finset.sum_congr rfl fun c _ => ?_).trans (DenseRead.dotGeneral_apply (m := 100000) (k := 32) (n := 64) none .single A B r q).symm
  rw [h0, h1]

/-- What point t writes back is block t of the host product of the two whole arrays: entry (p, q) of the block is entry (5000·t + p, q) of the array, the left block's row p is row 5000·t + p of the left array, and the right block is the whole right array. -/
theorem flushed4_eq (V : (c : Dev nD) → (b : Ref sig .tc) → Buf (Elt Ideal) ((c : Thread nD τ).loc b)) (c : Dev nD) (t : Fin cfg4.N) :
    (dat4 (F := Ideal) V c).flushed 2 t = ((cfg4.win 2).blk t).view.read (Elt Ideal)
      (Host.dotGeneral (F := Ideal) (φ₁ := .f32) (φ₂ := .f32) (DotDims.plain 100000 32 64) none (V c main_v60) (V c main_arg6)) := by
  show (cfg4.win 2).cut (grid4.coords t) ((dat4 V c).after 2 t) = _
  rw [after4_2]
  unfold out4_2
  rw [View.canon_unit_zero zero_offsets]
  simp only [View.ld_unit_zero (S := S5000x32) zero_offsets, View.ld_unit_zero (S := S32x64) zero_offsets]
  obtain ⟨e0, e1, e2, e3, e4, e5⟩ := idx_facts4 t
  have ht : t.val < 20 := t.isLt.trans_eq N_4
  refine funext fun (y : S5000x64.Idx) => ?_
  obtain ⟨p, q, rfl⟩ : ∃ (p : Fin 5000) (q : Fin 64), y = ix2 p q := ⟨y 0, y 1, eq_ix2 y⟩
  have hp : p.val < 5000 := p.isLt
  have hr : t.val * 5000 + p.val < 100000 := by omega
  have hemb : ((cfg4.win 2).blk t).view.emb (ix2 p q) = ix2 (⟨t.val * 5000 + p.val, hr⟩ : Fin 100000) q := by
    funext a; apply Fin.ext
    match a with
    | ⟨0, _⟩ => show win4_2.index t (0 : Fin 2) * 5000 + 1 * p.val = t.val * 5000 + p.val; omega
    | ⟨1, _⟩ => show win4_2.index t (1 : Fin 2) * 64 + 1 * q.val = q.val; omega
  show k4_pay1 (iblk4 V c 0 t) (iblk4 V c 1 t) (ix2 p q)
    = Host.dotGeneral (F := Ideal) (φ₁ := .f32) (φ₂ := .f32) (DotDims.plain 100000 32 64) none (V c main_v60) (V c main_arg6) (((cfg4.win 2).blk t).view.emb (ix2 p q))
  rw [hemb]
  refine block4_entry _ _ _ _ ⟨_, hr⟩ p q (fun k => ?_) (fun k => ?_)
  · show V c main_v60 (((cfg4.win 0).blk t).view.emb (ix2 p k)) = V c main_v60 (ix2 (⟨t.val * 5000 + p.val, hr⟩ : Fin 100000) k)
    congr 1
    funext a; apply Fin.ext
    match a with
    | ⟨0, _⟩ => show win4_0.index t (0 : Fin 2) * 5000 + 1 * p.val = t.val * 5000 + p.val; omega
    | ⟨1, _⟩ => show win4_0.index t (1 : Fin 2) * 32 + 1 * k.val = k.val; omega
  · show V c main_arg6 (((cfg4.win 1).blk t).view.emb (ix2 k q)) = V c main_arg6 (ix2 k q)
    congr 1
    funext a; apply Fin.ext
    match a with
    | ⟨0, _⟩ => show win4_1.index t (0 : Fin 2) * 32 + 1 * k.val = k.val; omega
    | ⟨1, _⟩ => show win4_1.index t (1 : Fin 2) * 64 + 1 * q.val = q.val; omega

/-- An index of the output array lies in point t's block iff each coordinate is in the block's range on its axis. -/
theorem mem_blk4 (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v61).slice (win4_2.rect t)).set ↔ _
  rw [View.set_slice_whole, Rect.mem_set_unit]
  exact Iff.rfl

/-- The blocks cover the output array: row r lies in the block of point r / 5000. -/
theorem cover4 (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ : ∃ t : Fin cfg4.N, t.val = (i 0).val / 5000 :=
    ⟨⟨(i 0).val / 5000, by rw [show cfg4.N = 20 from N_4]; omega⟩, rfl⟩
  obtain ⟨e0, e1, e2, e3, e4, e5⟩ := idx_facts4 t
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- Region 4: the output array ends at the plain product of the whole 100000×32 and 32×64 arrays. -/
theorem final4 (V : (c : Dev nD) → (b : Ref sig .tc) → Buf (Elt Ideal) ((c : Thread nD τ).loc b)) (c : Dev nD) :
    Eq (α := FVec Ideal S100000x64 .f32) ((dat4 (F := Ideal) V c).arrAt 2 cfg4.N)
      (Host.dotGeneral (F := Ideal) (φ₁ := .f32) (φ₂ := .f32) (DotDims.plain 100000 32 64) none (V c main_v60) (V c main_arg6)) :=
  (dat4 (F := Ideal) V c).arrAt_eq_of_cover 2 _ (fun t _ => flushed4_eq V c t) cover4

end Cert.KernelIdeal.RegionValue

end
-- ==== Proof.RegionBias.lean ====
/-
  The three pipelined bias stages of the kernel program, each read as one whole array: a row-tiled stage leaves in its output array the input array plus the bias row on every row, rectified against 0 in the first two.

  Each stage runs over a grid of 20 points. At point `t` the body reads rows `[5000 t, 5000 t + 5000)` of the input and the
  whole bias row, repeats the row down the block, adds, (in the first two stages) takes the maximum with 0, and writes the
  block back to the same rows of the output. Entry `(p, q)` of the block written at `t` is therefore
  `max (a[5000 t + p, q] + b[0, q]) 0` (without the `max` in the last stage), which is entry `(5000 t + p, q)` of the
  whole-array expression; and every row `r` lies in the block of point `r / 5000`. So the output array ends at the
  whole-array expression.
-/
import proofs.«155101_j19344532701547_1_alg».proof.Proof.Gen.KernelIdeal.Frame
import proofs.«155101_j19344532701547_1_alg».proof.Proof.LibDenseRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem Idealize.ShloMosaic.ValueIdx
open Cert.KernelIdeal Cert.KernelIdeal.Gen
open Idealize.ShloMosaic.Pipeline (Dat)

/-- The zero offsets of a whole-block access, spelt as a constant function. -/
theorem off_zero : (![0, 0] : Fin 2 → Nat) = fun _ => 0 := funext fun a => by fin_cases a <;> rfl

/-! ## Region 1 (width 16) -/

/-- The body's result at entry `(p, q)` of the block: the row entry plus the bias entry, rectified against 0. -/
theorem body1_apply (x0 : Vec Ideal S5000x16 .f32) (x1 : Vec Ideal S1x16 .f32) (p : Fin 5000) (q : Fin 16) :
    k1_pay1 x0 x1 (ix2 p q) = max (x0 (ix2 p q) + x1 (ix2 (0 : Fin 1) q)) 0 := by
  unfold k1_pay1
  rw [maximumf_apply, addf_apply, broadcast_apply, shapeCast_self, shapeCast_self, broadcastTo_1b_ab_apply]
  exact congrArg _ Ideal.ofBits_zero_f32

/-- The whole-array term at entry `(r, j)`: the same expression of the two arrays. -/
theorem whole1_apply (A : FVec Ideal S100000x16 .f32) (B : FVec Ideal S1x16 .f32)
    (h2 : S1x16.BroadcastsInDim S100000x16 (![0, 1] : Fin 2 → Fin 2)) (h0 : S_.BroadcastsInDim S100000x16 (![] : Fin 0 → Fin 2))
    (r : Fin 100000) (j : Fin 16) :
    (maximumf (addf A (broadcastInDim S100000x16 ![0, 1] h2 B))
        (broadcastInDim S100000x16 ![] h0 (constant (F := Ideal) S_ .f32 0x00000000#32))) (ix2 r j)
      = max (A (ix2 r j) + B (ix2 (0 : Fin 1) j)) 0 := by
  rw [maximumf_apply, addf_apply, DenseRead.zeroFill_apply]
  congr 2
  refine broadcastInDim_apply _ h2 B (ix2 r j) (ix2 (0 : Fin 1) j) (fun a => ?_)
  match a with
  | ⟨0, _⟩ => show 0 = if (1 : Nat) = 1 then 0 else r.val; rw [if_pos rfl]
  | ⟨1, _⟩ => show j.val = if (16 : Nat) = 1 then 0 else j.val; rw [if_neg (by decide)]

/-- The printed index maps over the grid: the row-tiled windows sit at block `t` of the rows and block 0 of the
    columns; the bias window at block (0, 0). -/
theorem index_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole-array term: entry `(p, q)` of the block is entry
    `(5000 t + p, q)` of the array on both sides, and the bias block is the whole bias row at every point. -/
theorem writeback1 (V : (c : Dev nD) → (b : Ref sig .tc) → Buf (Elt Ideal) ((c : Thread nD τ).loc b)) (c : Dev nD)
    (h2 : S1x16.BroadcastsInDim S100000x16 (![0, 1] : Fin 2 → Fin 2)) (h0 : S_.BroadcastsInDim S100000x16 (![] : Fin 0 → Fin 2))
    (t : Fin cfg1.N) :
    (dat1 (F := Ideal) V c).flushed 2 t = ((cfg1.win 2).blk t).view.read (Elt Ideal)
      (maximumf (addf (V c main_v43) (broadcastInDim S100000x16 ![0, 1] h2 (V c main_v44)))
          (broadcastInDim S100000x16 ![] h0 (constant (F := Ideal) S_ .f32 0x00000000#32))) := by
  show (cfg1.win 2).cut (grid1.coords t) ((dat1 V c).after 2 t) = _
  rw [after1_2]
  unfold out1_2
  rw [View.canon_unit_zero off_zero]
  simp only [View.ld_unit_zero (S := S5000x16) off_zero, View.ld_unit_zero (S := S1x16) off_zero]
  obtain ⟨e00, e01, e10, e11, e20, e21⟩ := index_maps1 t
  have ht : t.val < 20 := lt_of_lt_of_eq t.isLt N_1
  funext y
  obtain ⟨p, q, rfl⟩ : ∃ (p : Fin 5000) (q : Fin 16), y = ix2 p q := ⟨y 0, y 1, eq_ix2 y⟩
  have hp : p.val < 5000 := p.isLt
  have hr : 5000 * t.val + p.val < 100000 := by omega
  show k1_pay1 (iblk1 V c 0 t) (iblk1 V c 1 t) (ix2 p q) = _
  refine (body1_apply _ _ p q).trans ?_
  rw [View.read_apply]
  have e2 : ((cfg1.win 2).blk t).view.emb (ix2 p q) = ix2 (⟨5000 * t.val + p.val, hr⟩ : Fin 100000) q := by
    funext a; apply Fin.ext
    match a with
    | ⟨0, _⟩ => show win1_2.index t (0 : Fin 2) * 5000 + 1 * p.val = 5000 * t.val + p.val; omega
    | ⟨1, _⟩ => show win1_2.index t (1 : Fin 2) * 16 + 1 * q.val = q.val; omega
  rw [e2, whole1_apply]
  have b0 : iblk1 V c 0 t (ix2 p q) = V c main_v43 (ix2 (⟨5000 * t.val + p.val, hr⟩ : Fin 100000) q) := by
    unfold iblk1
    rw [View.read_apply]
    show V c main_v43 (((cfg1.win 0).blk t).view.emb (ix2 p q)) = _
    refine congrArg (V c main_v43) (funext fun a => Fin.ext ?_)
    match a with
    | ⟨0, _⟩ => show win1_0.index t (0 : Fin 2) * 5000 + 1 * p.val = 5000 * t.val + p.val; omega
    | ⟨1, _⟩ => show win1_0.index t (1 : Fin 2) * 16 + 1 * q.val = q.val; omega
  have b1 : iblk1 V c 1 t (ix2 (0 : Fin 1) q) = V c main_v44 (ix2 (0 : Fin 1) q) := by
    unfold iblk1
    rw [View.read_apply]
    show V c main_v44 (((cfg1.win 1).blk t).view.emb (ix2 (0 : Fin 1) q)) = _
    refine congrArg (V c main_v44) (funext fun a => Fin.ext ?_)
    match a with
    | ⟨0, _⟩ => show win1_1.index t (0 : Fin 2) * 1 + 1 * 0 = 0; omega
    | ⟨1, _⟩ => show win1_1.index t (1 : Fin 2) * 16 + 1 * q.val = q.val; omega
  rw [b0, b1]
  rfl

/-- An index of the array is in point `t`'s block iff each coordinate is in the block's range on its axis. -/
theorem mem_block1 (t : Fin cfg1.N) (i : S100000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v45).slice (win1_2.rect t)).set ↔ _
  rw [View.set_slice_whole, Rect.mem_set_unit]
  exact Iff.rfl

/-- Every row `r` lies in the block of point `r / 5000`: the twenty blocks of 5000 rows tile the 100000 rows. -/
theorem rows_covered1 (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 20 := N_1
  let t : Fin cfg1.N := ⟨(i 0).val / 5000, by rw [hN]; omega⟩
  obtain ⟨e00, e01, e10, e11, e20, e21⟩ := index_maps1 t
  have htv : t.val = (i 0).val / 5000 := rfl
  refine ⟨t, flush1_2 t, ?_⟩
  rw [mem_block1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 16 ≤ (i 1).val ∧ (i 1).val < win1_2.index t (1 : Fin 2) * 16 + 16; omega

/-- Region 1: the output array ends at the input plus the bias row on every row, rectified against 0 (width 16). -/
theorem final1 (V : (c : Dev nD) → (b : Ref sig .tc) → Buf (Elt Ideal) ((c : Thread nD τ).loc b)) (c : Dev nD)
    (h2 : S1x16.BroadcastsInDim S100000x16 (![0, 1] : Fin 2 → Fin 2)) (h0 : S_.BroadcastsInDim S100000x16 (![] : Fin 0 → Fin 2)) :
    Eq (α := FVec Ideal S100000x16 .f32) ((dat1 (F := Ideal) V c).arrAt 2 cfg1.N)
      (maximumf (addf (V c main_v43) (broadcastInDim S100000x16 ![0, 1] h2 (V c main_v44)))
          (broadcastInDim S100000x16 ![] h0 (constant (F := Ideal) S_ .f32 0x00000000#32))) :=
  (dat1 (F := Ideal) V c).arrAt_eq_of_cover 2 _ (fun t _ => writeback1 V c h2 h0 t) rows_covered1

/-! ## Region 3 (width 32) -/

/-- The body's result at entry `(p, q)` of the block: the row entry plus the bias entry, rectified against 0. -/
theorem body3_apply (x0 : Vec Ideal S5000x32 .f32) (x1 : Vec Ideal S1x32 .f32) (p : Fin 5000) (q : Fin 32) :
    k3_pay1 x0 x1 (ix2 p q) = max (x0 (ix2 p q) + x1 (ix2 (0 : Fin 1) q)) 0 := by
  unfold k3_pay1
  rw [maximumf_apply, addf_apply, broadcast_apply, shapeCast_self, shapeCast_self, broadcastTo_1b_ab_apply]
  exact congrArg _ Ideal.ofBits_zero_f32

/-- The whole-array term at entry `(r, j)`: the same expression of the two arrays. -/
theorem whole3_apply (A : FVec Ideal S100000x32 .f32) (B : FVec Ideal S1x32 .f32)
    (h2 : S1x32.BroadcastsInDim S100000x32 (![0, 1] : Fin 2 → Fin 2)) (h0 : S_.BroadcastsInDim S100000x32 (![] : Fin 0 → Fin 2))
    (r : Fin 100000) (j : Fin 32) :
    (maximumf (addf A (broadcastInDim S100000x32 ![0, 1] h2 B))
        (broadcastInDim S100000x32 ![] h0 (constant (F := Ideal) S_ .f32 0x00000000#32))) (ix2 r j)
      = max (A (ix2 r j) + B (ix2 (0 : Fin 1) j)) 0 := by
  rw [maximumf_apply, addf_apply, DenseRead.zeroFill_apply]
  congr 2
  refine broadcastInDim_apply _ h2 B (ix2 r j) (ix2 (0 : Fin 1) j) (fun a => ?_)
  match a with
  | ⟨0, _⟩ => show 0 = if (1 : Nat) = 1 then 0 else r.val; rw [if_pos rfl]
  | ⟨1, _⟩ => show j.val = if (32 : Nat) = 1 then 0 else j.val; rw [if_neg (by decide)]

/-- The printed index maps over the grid: the row-tiled windows sit at block `t` of the rows and block 0 of the
    columns; the bias window at block (0, 0). -/
theorem index_maps3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the whole-array term: entry `(p, q)` of the block is entry
    `(5000 t + p, q)` of the array on both sides, and the bias block is the whole bias row at every point. -/
theorem writeback3 (V : (c : Dev nD) → (b : Ref sig .tc) → Buf (Elt Ideal) ((c : Thread nD τ).loc b)) (c : Dev nD)
    (h2 : S1x32.BroadcastsInDim S100000x32 (![0, 1] : Fin 2 → Fin 2)) (h0 : S_.BroadcastsInDim S100000x32 (![] : Fin 0 → Fin 2))
    (t : Fin cfg3.N) :
    (dat3 (F := Ideal) V c).flushed 2 t = ((cfg3.win 2).blk t).view.read (Elt Ideal)
      (maximumf (addf (V c main_v58) (broadcastInDim S100000x32 ![0, 1] h2 (V c main_v59)))
          (broadcastInDim S100000x32 ![] h0 (constant (F := Ideal) S_ .f32 0x00000000#32))) := by
  show (cfg3.win 2).cut (grid3.coords t) ((dat3 V c).after 2 t) = _
  rw [after3_2]
  unfold out3_2
  rw [View.canon_unit_zero off_zero]
  simp only [View.ld_unit_zero (S := S5000x32) off_zero, View.ld_unit_zero (S := S1x32) off_zero]
  obtain ⟨e00, e01, e10, e11, e20, e21⟩ := index_maps3 t
  have ht : t.val < 20 := lt_of_lt_of_eq t.isLt N_3
  funext y
  obtain ⟨p, q, rfl⟩ : ∃ (p : Fin 5000) (q : Fin 32), y = ix2 p q := ⟨y 0, y 1, eq_ix2 y⟩
  have hp : p.val < 5000 := p.isLt
  have hr : 5000 * t.val + p.val < 100000 := by omega
  show k3_pay1 (iblk3 V c 0 t) (iblk3 V c 1 t) (ix2 p q) = _
  refine (body3_apply _ _ p q).trans ?_
  rw [View.read_apply]
  have e2 : ((cfg3.win 2).blk t).view.emb (ix2 p q) = ix2 (⟨5000 * t.val + p.val, hr⟩ : Fin 100000) q := by
    funext a; apply Fin.ext
    match a with
    | ⟨0, _⟩ => show win3_2.index t (0 : Fin 2) * 5000 + 1 * p.val = 5000 * t.val + p.val; omega
    | ⟨1, _⟩ => show win3_2.index t (1 : Fin 2) * 32 + 1 * q.val = q.val; omega
  rw [e2, whole3_apply]
  have b0 : iblk3 V c 0 t (ix2 p q) = V c main_v58 (ix2 (⟨5000 * t.val + p.val, hr⟩ : Fin 100000) q) := by
    unfold iblk3
    rw [View.read_apply]
    show V c main_v58 (((cfg3.win 0).blk t).view.emb (ix2 p q)) = _
    refine congrArg (V c main_v58) (funext fun a => Fin.ext ?_)
    match a with
    | ⟨0, _⟩ => show win3_0.index t (0 : Fin 2) * 5000 + 1 * p.val = 5000 * t.val + p.val; omega
    | ⟨1, _⟩ => show win3_0.index t (1 : Fin 2) * 32 + 1 * q.val = q.val; omega
  have b1 : iblk3 V c 1 t (ix2 (0 : Fin 1) q) = V c main_v59 (ix2 (0 : Fin 1) q) := by
    unfold iblk3
    rw [View.read_apply]
    show V c main_v59 (((cfg3.win 1).blk t).view.emb (ix2 (0 : Fin 1) q)) = _
    refine congrArg (V c main_v59) (funext fun a => Fin.ext ?_)
    match a with
    | ⟨0, _⟩ => show win3_1.index t (0 : Fin 2) * 1 + 1 * 0 = 0; omega
    | ⟨1, _⟩ => show win3_1.index t (1 : Fin 2) * 32 + 1 * q.val = q.val; omega
  rw [b0, b1]
  rfl

/-- An index of the array is in point `t`'s block iff each coordinate is in the block's range on its axis. -/
theorem mem_block3 (t : Fin cfg3.N) (i : S100000x32.Idx) :
    i ∈ ((cfg3.win 2).blk t).view.set ↔ ∀ a : Fin 2, win3_2.index t a * S5000x32.size a ≤ (i a).val ∧ (i a).val < win3_2.index t a * S5000x32.size a + S5000x32.size a := by
  show i ∈ ((View.whole main_v60).slice (win3_2.rect t)).set ↔ _
  rw [View.set_slice_whole, Rect.mem_set_unit]
  exact Iff.rfl

/-- Every row `r` lies in the block of point `r / 5000`: the twenty blocks of 5000 rows tile the 100000 rows. -/
theorem rows_covered3 (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  have hN : cfg3.N = 20 := N_3
  let t : Fin cfg3.N := ⟨(i 0).val / 5000, by rw [hN]; omega⟩
  obtain ⟨e00, e01, e10, e11, e20, e21⟩ := index_maps3 t
  have htv : t.val = (i 0).val / 5000 := rfl
  refine ⟨t, flush3_2 t, ?_⟩
  rw [mem_block3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 32 ≤ (i 1).val ∧ (i 1).val < win3_2.index t (1 : Fin 2) * 32 + 32; omega

/-- Region 3: the output array ends at the input plus the bias row on every row, rectified against 0 (width 32). -/
theorem final3 (V : (c : Dev nD) → (b : Ref sig .tc) → Buf (Elt Ideal) ((c : Thread nD τ).loc b)) (c : Dev nD)
    (h2 : S1x32.BroadcastsInDim S100000x32 (![0, 1] : Fin 2 → Fin 2)) (h0 : S_.BroadcastsInDim S100000x32 (![] : Fin 0 → Fin 2)) :
    Eq (α := FVec Ideal S100000x32 .f32) ((dat3 (F := Ideal) V c).arrAt 2 cfg3.N)
      (maximumf (addf (V c main_v58) (broadcastInDim S100000x32 ![0, 1] h2 (V c main_v59)))
          (broadcastInDim S100000x32 ![] h0 (constant (F := Ideal) S_ .f32 0x00000000#32))) :=
  (dat3 (F := Ideal) V c).arrAt_eq_of_cover 2 _ (fun t _ => writeback3 V c h2 h0 t) rows_covered3

/-! ## Region 5 (width 64) -/

/-- The body's result at entry `(p, q)` of the block: the row entry plus the bias entry. -/
theorem body5_apply (x0 : Vec Ideal S5000x64 .f32) (x1 : Vec Ideal S1x64 .f32) (p : Fin 5000) (q : Fin 64) :
    k5_pay1 x0 x1 (ix2 p q) = x0 (ix2 p q) + x1 (ix2 (0 : Fin 1) q) := by
  unfold k5_pay1
  rw [addf_apply, shapeCast_self, shapeCast_self, broadcastTo_1b_ab_apply]

/-- The whole-array term at entry `(r, j)`: the same expression of the two arrays. -/
theorem whole5_apply (A : FVec Ideal S100000x64 .f32) (B : FVec Ideal S1x64 .f32)
    (h2 : S1x64.BroadcastsInDim S100000x64 (![0, 1] : Fin 2 → Fin 2))
    (r : Fin 100000) (j : Fin 64) :
    (addf A (broadcastInDim S100000x64 ![0, 1] h2 B)) (ix2 r j)
      = A (ix2 r j) + B (ix2 (0 : Fin 1) j) := by
  rw [addf_apply]
  congr 1
  refine broadcastInDim_apply _ h2 B (ix2 r j) (ix2 (0 : Fin 1) j) (fun a => ?_)
  match a with
  | ⟨0, _⟩ => show 0 = if (1 : Nat) = 1 then 0 else r.val; rw [if_pos rfl]
  | ⟨1, _⟩ => show j.val = if (64 : Nat) = 1 then 0 else j.val; rw [if_neg (by decide)]

/-- The printed index maps over the grid: the row-tiled windows sit at block `t` of the rows and block 0 of the
    columns; the bias window at block (0, 0). -/
theorem index_maps5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the whole-array term: entry `(p, q)` of the block is entry
    `(5000 t + p, q)` of the array on both sides, and the bias block is the whole bias row at every point. -/
theorem writeback5 (V : (c : Dev nD) → (b : Ref sig .tc) → Buf (Elt Ideal) ((c : Thread nD τ).loc b)) (c : Dev nD)
    (h2 : S1x64.BroadcastsInDim S100000x64 (![0, 1] : Fin 2 → Fin 2))
    (t : Fin cfg5.N) :
    (dat5 (F := Ideal) V c).flushed 2 t = ((cfg5.win 2).blk t).view.read (Elt Ideal)
      (addf (V c main_v73) (broadcastInDim S100000x64 ![0, 1] h2 (V c main_v74)) : FVec Ideal S100000x64 .f32) := by
  show (cfg5.win 2).cut (grid5.coords t) ((dat5 V c).after 2 t) = _
  rw [after5_2]
  unfold out5_2
  rw [View.canon_unit_zero off_zero]
  simp only [View.ld_unit_zero (S := S5000x64) off_zero, View.ld_unit_zero (S := S1x64) off_zero]
  obtain ⟨e00, e01, e10, e11, e20, e21⟩ := index_maps5 t
  have ht : t.val < 20 := lt_of_lt_of_eq t.isLt N_5
  funext y
  obtain ⟨p, q, rfl⟩ : ∃ (p : Fin 5000) (q : Fin 64), y = ix2 p q := ⟨y 0, y 1, eq_ix2 y⟩
  have hp : p.val < 5000 := p.isLt
  have hr : 5000 * t.val + p.val < 100000 := by omega
  show k5_pay1 (iblk5 V c 0 t) (iblk5 V c 1 t) (ix2 p q) = _
  refine (body5_apply _ _ p q).trans ?_
  rw [View.read_apply]
  have e2 : ((cfg5.win 2).blk t).view.emb (ix2 p q) = ix2 (⟨5000 * t.val + p.val, hr⟩ : Fin 100000) q := by
    funext a; apply Fin.ext
    match a with
    | ⟨0, _⟩ => show win5_2.index t (0 : Fin 2) * 5000 + 1 * p.val = 5000 * t.val + p.val; omega
    | ⟨1, _⟩ => show win5_2.index t (1 : Fin 2) * 64 + 1 * q.val = q.val; omega
  rw [e2, whole5_apply]
  have b0 : iblk5 V c 0 t (ix2 p q) = V c main_v73 (ix2 (⟨5000 * t.val + p.val, hr⟩ : Fin 100000) q) := by
    unfold iblk5
    rw [View.read_apply]
    show V c main_v73 (((cfg5.win 0).blk t).view.emb (ix2 p q)) = _
    refine congrArg (V c main_v73) (funext fun a => Fin.ext ?_)
    match a with
    | ⟨0, _⟩ => show win5_0.index t (0 : Fin 2) * 5000 + 1 * p.val = 5000 * t.val + p.val; omega
    | ⟨1, _⟩ => show win5_0.index t (1 : Fin 2) * 64 + 1 * q.val = q.val; omega
  have b1 : iblk5 V c 1 t (ix2 (0 : Fin 1) q) = V c main_v74 (ix2 (0 : Fin 1) q) := by
    unfold iblk5
    rw [View.read_apply]
    show V c main_v74 (((cfg5.win 1).blk t).view.emb (ix2 (0 : Fin 1) q)) = _
    refine congrArg (V c main_v74) (funext fun a => Fin.ext ?_)
    match a with
    | ⟨0, _⟩ => show win5_1.index t (0 : Fin 2) * 1 + 1 * 0 = 0; omega
    | ⟨1, _⟩ => show win5_1.index t (1 : Fin 2) * 64 + 1 * q.val = q.val; omega
  rw [b0, b1]
  rfl

/-- An index of the array is in point `t`'s block iff each coordinate is in the block's range on its axis. -/
theorem mem_block5 (t : Fin cfg5.N) (i : S100000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v75).slice (win5_2.rect t)).set ↔ _
  rw [View.set_slice_whole, Rect.mem_set_unit]
  exact Iff.rfl

/-- Every row `r` lies in the block of point `r / 5000`: the twenty blocks of 5000 rows tile the 100000 rows. -/
theorem rows_covered5 (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have hN : cfg5.N = 20 := N_5
  let t : Fin cfg5.N := ⟨(i 0).val / 5000, by rw [hN]; omega⟩
  obtain ⟨e00, e01, e10, e11, e20, e21⟩ := index_maps5 t
  have htv : t.val = (i 0).val / 5000 := rfl
  refine ⟨t, flush5_2 t, ?_⟩
  rw [mem_block5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 64 ≤ (i 1).val ∧ (i 1).val < win5_2.index t (1 : Fin 2) * 64 + 64; omega

/-- Region 5: the output array ends at the input plus the bias row on every row (width 64). -/
theorem final5 (V : (c : Dev nD) → (b : Ref sig .tc) → Buf (Elt Ideal) ((c : Thread nD τ).loc b)) (c : Dev nD)
    (h2 : S1x64.BroadcastsInDim S100000x64 (![0, 1] : Fin 2 → Fin 2)) :
    Eq (α := FVec Ideal S100000x64 .f32) ((dat5 (F := Ideal) V c).arrAt 2 cfg5.N)
      (addf (V c main_v73) (broadcastInDim S100000x64 ![0, 1] h2 (V c main_v74))) :=
  (dat5 (F := Ideal) V c).arrAt_eq_of_cover 2 _ (fun t _ => writeback5 V c h2 t) rows_covered5

end Cert.KernelIdeal.RegionValue

end
-- ==== Proof.KernelNet.lean ====
/-
  The kernel program's result as the three-layer graph convolution of its arguments.

  The program's twelve segments are walked from the launch memory to the return. The first three host stretches compute
  the edge ends and the edge weights from the edge list, once. Each layer is then: a pipelined matrix product (read as
  the host's plain product of whole arrays), a host stretch that gathers, weights and sums along the edges, and a
  pipelined bias stage (read as the bias row added on every row, rectified in the first two layers). The edge
  structure and the later layers' parameters are written by no later segment, so every segment reads them as the
  first stretches left them.
-/
import proofs.«155101_j19344532701547_1_alg».proof.Proof.KernelEdges
import proofs.«155101_j19344532701547_1_alg».proof.Proof.Gen.KernelIdeal.Frame
import proofs.«155101_j19344532701547_1_alg».proof.Proof.RegionProducts
import proofs.«155101_j19344532701547_1_alg».proof.Proof.RegionBias

set_option maxRecDepth 16384

noncomputable section

namespace Cert.KernelIdeal.Net

open Idealize.ShloMosaic Idealize.ShloMosaic.TcCoe Idealize.SL.Sem Idealize.ShloMosaic.StableHlo
open Cert.KernelIdeal Cert.KernelIdeal.Gen Cert.KernelIdeal.RegionValue

/-! ## The layers -/

theorem row16 : S1x16.BroadcastsInDim S100000x16 (![0, 1] : Fin 2 → Fin 2) := by decide
theorem row32 : S1x32.BroadcastsInDim S100000x32 (![0, 1] : Fin 2 → Fin 2) := by decide
theorem row64 : S1x64.BroadcastsInDim S100000x64 (![0, 1] : Fin 2 → Fin 2) := by decide

section Layers
variable {F : FTy → Type} [FloatOps F]

/-- x · W at 11 → 16 features. -/
def lin1 (x : (⟨S100000x11, .f32⟩ : BufTy).Contents (Elt F)) (W : (⟨S11x16, .f32⟩ : BufTy).Contents (Elt F)) : (⟨S100000x16, .f32⟩ : BufTy).Contents (Elt F) :=
  Host.dotGeneral (DotDims.plain 100000 11 16) none x W
/-- h · W at 16 → 32 features. -/
def lin2 (x : (⟨S100000x16, .f32⟩ : BufTy).Contents (Elt F)) (W : (⟨S16x32, .f32⟩ : BufTy).Contents (Elt F)) : (⟨S100000x32, .f32⟩ : BufTy).Contents (Elt F) :=
  Host.dotGeneral (DotDims.plain 100000 16 32) none x W
/-- h · W at 32 → 64 features. -/
def lin3 (x : (⟨S100000x32, .f32⟩ : BufTy).Contents (Elt F)) (W : (⟨S32x64, .f32⟩ : BufTy).Contents (Elt F)) : (⟨S100000x64, .f32⟩ : BufTy).Contents (Elt F) :=
  Host.dotGeneral (DotDims.plain 100000 32 64) none x W

/-- The bias row added on every row, rectified, at width 16. -/
def act16 (a : (⟨S100000x16, .f32⟩ : BufTy).Contents (Elt F)) (b : (⟨S1x16, .f32⟩ : BufTy).Contents (Elt F)) : (⟨S100000x16, .f32⟩ : BufTy).Contents (Elt F) :=
  maximumf (addf a (broadcastInDim S100000x16 ![0, 1] row16 b))
    (broadcastInDim S100000x16 ![] bcast_S_S100000x16 (constant (F := F) S_ .f32 0x00000000#32))
/-- The bias row added on every row, rectified, at width 32. -/
def act32 (a : (⟨S100000x32, .f32⟩ : BufTy).Contents (Elt F)) (b : (⟨S1x32, .f32⟩ : BufTy).Contents (Elt F)) : (⟨S100000x32, .f32⟩ : BufTy).Contents (Elt F) :=
  maximumf (addf a (broadcastInDim S100000x32 ![0, 1] row32 b))
    (broadcastInDim S100000x32 ![] bcast_S_S100000x32 (constant (F := F) S_ .f32 0x00000000#32))
/-- The bias row added on every row, at width 64. -/
def bias64 (a : (⟨S100000x64, .f32⟩ : BufTy).Contents (Elt F)) (b : (⟨S1x64, .f32⟩ : BufTy).Contents (Elt F)) : (⟨S100000x64, .f32⟩ : BufTy).Contents (Elt F) :=
  addf a (broadcastInDim S100000x64 ![0, 1] row64 b)

/-- The three layers over one edge list. -/
def net (x : (⟨S100000x11, .f32⟩ : BufTy).Contents (Elt F)) (ei : (⟨S2x3200000, .i32⟩ : BufTy).Contents (Elt F))
    (W1 : (⟨S11x16, .f32⟩ : BufTy).Contents (Elt F)) (b1 : (⟨S16, .f32⟩ : BufTy).Contents (Elt F)) (W2 : (⟨S16x32, .f32⟩ : BufTy).Contents (Elt F)) (b2 : (⟨S32, .f32⟩ : BufTy).Contents (Elt F))
    (W3 : (⟨S32x64, .f32⟩ : BufTy).Contents (Elt F)) (b3 : (⟨S64, .f32⟩ : BufTy).Contents (Elt F)) : (⟨S100000x64, .f32⟩ : BufTy).Contents (Elt F) :=
  bias64 (agg64 (lin3 (act32 (agg32 (lin2 (act16 (agg16 (lin1 x W1)
      (srcOf ei) (dstOf ei) (normCol (srcOf ei) (dstOf ei))) (shapeCast _ b1 shapeCasts_S16_S1x16)) W2)
      (srcOf ei) (dstOf ei) (normCol (srcOf ei) (dstOf ei))) (shapeCast _ b2 shapeCasts_S32_S1x32)) W3)
      (srcOf ei) (dstOf ei) (normCol (srcOf ei) (dstOf ei))) (shapeCast _ b3 shapeCasts_S64_S1x64)

/-! ## The host stretches, from any contents -/

set_option maxHeartbeats 4000000 in
/-- The first three stretches leave the sources. -/
theorem first_v3 (W : Valuation τ sig (Elt F)) :
    after hostOps0_2 (after hostOps0_1 (after hostOps0 W)) (Proc.devRef .tc main_v3) = srcOf (W (Proc.devRef .tc main_arg1)) := by
  after_results_simp
  rfl
set_option maxHeartbeats 4000000 in
/-- The first three stretches leave the targets. -/
theorem first_v6 (W : Valuation τ sig (Elt F)) :
    after hostOps0_2 (after hostOps0_1 (after hostOps0 W)) (Proc.devRef .tc main_v6) = dstOf (W (Proc.devRef .tc main_arg1)) := by
  after_results_simp
  rfl
set_option maxHeartbeats 4000000 in
/-- The first three stretches leave the edge weights, as a column. -/
theorem first_v30 (W : Valuation τ sig (Elt F)) :
    after hostOps0_2 (after hostOps0_1 (after hostOps0 W)) (Proc.devRef .tc main_v30)
      = normCol (srcOf (W (Proc.devRef .tc main_arg1))) (dstOf (W (Proc.devRef .tc main_arg1))) := by
  after_results_simp
  rfl

/-- The parameters the later segments read. -/
def params : List (Ref sig .tc) := [main_arg0, main_arg2, main_arg3, main_arg4, main_arg5, main_arg6, main_arg7]

set_option maxHeartbeats 4000000 in
/-- The first three stretches write no parameter. -/
theorem first_keep (W : Valuation τ sig (Elt F)) : ∀ b ∈ params,
    after hostOps0_2 (after hostOps0_1 (after hostOps0 W)) (Proc.devRef .tc b) = W (Proc.devRef .tc b) := by
  intro b hb
  simp only [params, List.mem_cons, List.not_mem_nil, or_false] at hb
  rcases hb with rfl | rfl | rfl | rfl | rfl | rfl | rfl <;> after_results_simp

/-- What every later segment still reads and none writes: the edge ends, the weights and the layers' parameters. -/
def carried : List (Ref sig .tc) := [main_v3, main_v6, main_v30, main_arg3, main_arg4, main_arg5, main_arg6, main_arg7]

set_option maxHeartbeats 4000000 in
/-- The layer's host stretch leaves the aggregation of the product array at width 16. -/
theorem ops1_agg (W : Valuation τ sig (Elt F)) :
    after hostOps1 W (Proc.devRef .tc main_v43)
      = agg16 (W (Proc.devRef .tc main_v31)) (W (Proc.devRef .tc main_v3)) (W (Proc.devRef .tc main_v6)) (W (Proc.devRef .tc main_v30)) := by
  after_results_simp
  rfl
/-- The layer's host stretch leaves the bias as a row. -/
theorem ops1_row (W : Valuation τ sig (Elt F)) :
    after hostOps1 W (Proc.devRef .tc main_v44) = shapeCast _ (W (Proc.devRef .tc main_arg3)) shapeCasts_S16_S1x16 := by
  after_results_simp
  rfl
set_option maxHeartbeats 4000000 in
/-- The layer's host stretch writes nothing carried. -/
theorem ops1_keep (W : Valuation τ sig (Elt F)) : ∀ b ∈ carried,
    after hostOps1 W (Proc.devRef .tc b) = W (Proc.devRef .tc b) := by
  intro b hb
  simp only [carried, List.mem_cons, List.not_mem_nil, or_false] at hb
  rcases hb with rfl | rfl | rfl | rfl | rfl | rfl | rfl | rfl <;> after_results_simp

set_option maxHeartbeats 4000000 in
/-- The layer's host stretch leaves the aggregation of the product array at width 32. -/
theorem ops3_agg (W : Valuation τ sig (Elt F)) :
    after hostOps3 W (Proc.devRef .tc main_v58)
      = agg32 (W (Proc.devRef .tc main_v46)) (W (Proc.devRef .tc main_v3)) (W (Proc.devRef .tc main_v6)) (W (Proc.devRef .tc main_v30)) := by
  after_results_simp
  rfl
/-- The layer's host stretch leaves the bias as a row. -/
theorem ops3_row (W : Valuation τ sig (Elt F)) :
    after hostOps3 W (Proc.devRef .tc main_v59) = shapeCast _ (W (Proc.devRef .tc main_arg5)) shapeCasts_S32_S1x32 := by
  after_results_simp
  rfl
set_option maxHeartbeats 4000000 in
/-- The layer's host stretch writes nothing carried. -/
theorem ops3_keep (W : Valuation τ sig (Elt F)) : ∀ b ∈ carried,
    after hostOps3 W (Proc.devRef .tc b) = W (Proc.devRef .tc b) := by
  intro b hb
  simp only [carried, List.mem_cons, List.not_mem_nil, or_false] at hb
  rcases hb with rfl | rfl | rfl | rfl | rfl | rfl | rfl | rfl <;> after_results_simp

set_option maxHeartbeats 4000000 in
/-- The layer's host stretch leaves the aggregation of the product array at width 64. -/
theorem ops5_agg (W : Valuation τ sig (Elt F)) :
    after hostOps5 W (Proc.devRef .tc main_v73)
      = agg64 (W (Proc.devRef .tc main_v61)) (W (Proc.devRef .tc main_v3)) (W (Proc.devRef .tc main_v6)) (W (Proc.devRef .tc main_v30)) := by
  after_results_simp
  rfl
/-- The layer's host stretch leaves the bias as a row. -/
theorem ops5_row (W : Valuation τ sig (Elt F)) :
    after hostOps5 W (Proc.devRef .tc main_v74) = shapeCast _ (W (Proc.devRef .tc main_arg7)) shapeCasts_S64_S1x64 := by
  after_results_simp
  rfl
set_option maxHeartbeats 4000000 in
/-- The layer's host stretch writes nothing carried. -/
theorem ops5_keep (W : Valuation τ sig (Elt F)) : ∀ b ∈ carried,
    after hostOps5 W (Proc.devRef .tc b) = W (Proc.devRef .tc b) := by
  intro b hb
  simp only [carried, List.mem_cons, List.not_mem_nil, or_false] at hb
  rcases hb with rfl | rfl | rfl | rfl | rfl | rfl | rfl | rfl <;> after_results_simp

end Layers

/-! ## The walk through the segments -/

variable (m : (ℓ : Loc nD τ sig) → Buf (Elt Ideal) ℓ) (ρ : Dev nD → PrngReg) (c : Dev nD)

theorem w3_v3 : W3 m ρ c (Proc.devRef .tc main_v3) = srcOf (m ((c : Thread nD τ).loc main_arg1)) := first_v3 (W0 m ρ c)
theorem w3_v6 : W3 m ρ c (Proc.devRef .tc main_v6) = dstOf (m ((c : Thread nD τ).loc main_arg1)) := first_v6 (W0 m ρ c)
theorem w3_v30 : W3 m ρ c (Proc.devRef .tc main_v30) = normCol (srcOf (m ((c : Thread nD τ).loc main_arg1))) (dstOf (m ((c : Thread nD τ).loc main_arg1))) := first_v30 (W0 m ρ c)
theorem w3_param : ∀ b ∈ params, W3 m ρ c (Proc.devRef .tc b) = m ((c : Thread nD τ).loc b) := first_keep (W0 m ρ c)

theorem keep4 : ∀ b ∈ carried, W4 m ρ c (Proc.devRef .tc b) = W3 m ρ c (Proc.devRef .tc b) := by
  intro b hb
  simp only [carried, List.mem_cons, List.not_mem_nil, or_false] at hb
  rcases hb with rfl | rfl | rfl | rfl | rfl | rfl | rfl | rfl <;> exact W4_of_ne m ρ c _ (by decide)
theorem keep6 : ∀ b ∈ carried, W6 m ρ c (Proc.devRef .tc b) = W5 m ρ c (Proc.devRef .tc b) := by
  intro b hb
  simp only [carried, List.mem_cons, List.not_mem_nil, or_false] at hb
  rcases hb with rfl | rfl | rfl | rfl | rfl | rfl | rfl | rfl <;> exact W6_of_ne m ρ c _ (by decide)
theorem keep7 : ∀ b ∈ carried, W7 m ρ c (Proc.devRef .tc b) = W6 m ρ c (Proc.devRef .tc b) := by
  intro b hb
  simp only [carried, List.mem_cons, List.not_mem_nil, or_false] at hb
  rcases hb with rfl | rfl | rfl | rfl | rfl | rfl | rfl | rfl <;>
    first
    | exact W7_of_ne m ρ c _ (by decide)
    | exact (W7_arr m ρ c 1).trans (((dat2 (V6 m ρ) c).arrAt_in 1 rfl _).trans (A_eq2 (V6 m ρ) c 1))
theorem keep9 : ∀ b ∈ carried, W9 m ρ c (Proc.devRef .tc b) = W8 m ρ c (Proc.devRef .tc b) := by
  intro b hb
  simp only [carried, List.mem_cons, List.not_mem_nil, or_false] at hb
  rcases hb with rfl | rfl | rfl | rfl | rfl | rfl | rfl | rfl <;> exact W9_of_ne m ρ c _ (by decide)
theorem keep10 : ∀ b ∈ carried, W10 m ρ c (Proc.devRef .tc b) = W9 m ρ c (Proc.devRef .tc b) := by
  intro b hb
  simp only [carried, List.mem_cons, List.not_mem_nil, or_false] at hb
  rcases hb with rfl | rfl | rfl | rfl | rfl | rfl | rfl | rfl <;>
    first
    | exact W10_of_ne m ρ c _ (by decide)
    | exact (W10_arr m ρ c 1).trans (((dat4 (V9 m ρ) c).arrAt_in 1 rfl _).trans (A_eq4 (V9 m ρ) c 1))

theorem at4 : ∀ b ∈ carried, W4 m ρ c (Proc.devRef .tc b) = W3 m ρ c (Proc.devRef .tc b) := keep4 m ρ c
theorem at5 : ∀ b ∈ carried, W5 m ρ c (Proc.devRef .tc b) = W3 m ρ c (Proc.devRef .tc b) :=
  fun b hb => (ops1_keep (W4 m ρ c) b hb).trans (at4 m ρ c b hb)
theorem at6 : ∀ b ∈ carried, W6 m ρ c (Proc.devRef .tc b) = W3 m ρ c (Proc.devRef .tc b) :=
  fun b hb => (keep6 m ρ c b hb).trans (at5 m ρ c b hb)
theorem at7 : ∀ b ∈ carried, W7 m ρ c (Proc.devRef .tc b) = W3 m ρ c (Proc.devRef .tc b) :=
  fun b hb => (keep7 m ρ c b hb).trans (at6 m ρ c b hb)
theorem at8 : ∀ b ∈ carried, W8 m ρ c (Proc.devRef .tc b) = W3 m ρ c (Proc.devRef .tc b) :=
  fun b hb => (ops3_keep (W7 m ρ c) b hb).trans (at7 m ρ c b hb)
theorem at9 : ∀ b ∈ carried, W9 m ρ c (Proc.devRef .tc b) = W3 m ρ c (Proc.devRef .tc b) :=
  fun b hb => (keep9 m ρ c b hb).trans (at8 m ρ c b hb)
theorem at10 : ∀ b ∈ carried, W10 m ρ c (Proc.devRef .tc b) = W3 m ρ c (Proc.devRef .tc b) :=
  fun b hb => (keep10 m ρ c b hb).trans (at9 m ρ c b hb)

/-! ### Memberships -/
theorem v3_mem : main_v3 ∈ carried := by simp [carried]
theorem v6_mem : main_v6 ∈ carried := by simp [carried]
theorem v30_mem : main_v30 ∈ carried := by simp [carried]
theorem a3_mem : main_arg3 ∈ carried := by simp [carried]
theorem a4_mem : main_arg4 ∈ carried := by simp [carried]
theorem a5_mem : main_arg5 ∈ carried := by simp [carried]
theorem a6_mem : main_arg6 ∈ carried := by simp [carried]
theorem a7_mem : main_arg7 ∈ carried := by simp [carried]
theorem p0_mem : main_arg0 ∈ params := by simp [params]
theorem p2_mem : main_arg2 ∈ params := by simp [params]
theorem p3_mem : main_arg3 ∈ params := by simp [params]
theorem p4_mem : main_arg4 ∈ params := by simp [params]
theorem p5_mem : main_arg5 ∈ params := by simp [params]
theorem p6_mem : main_arg6 ∈ params := by simp [params]
theorem p7_mem : main_arg7 ∈ params := by simp [params]

/-! ### Layer 1 -/

/-- Region 0 leaves x · W1. -/
theorem w4_v31 : W4 m ρ c (Proc.devRef .tc main_v31) = (lin1 (m ((c : Thread nD τ).loc main_arg0)) (m ((c : Thread nD τ).loc main_arg2))) := by
  refine (W4_arr m ρ c 2).trans ((final0 (V3 m ρ) c).trans ?_)
  show lin1 (W3 m ρ c (Proc.devRef .tc main_arg0)) (W3 m ρ c (Proc.devRef .tc main_arg2)) = _
  rw [w3_param m ρ c main_arg0 p0_mem, w3_param m ρ c main_arg2 p2_mem]

/-- The stretch after it leaves the aggregation of x · W1. -/
theorem w5_v43 : W5 m ρ c (Proc.devRef .tc main_v43) = (agg16 (lin1 (m ((c : Thread nD τ).loc main_arg0)) (m ((c : Thread nD τ).loc main_arg2))) (srcOf (m ((c : Thread nD τ).loc main_arg1))) (dstOf (m ((c : Thread nD τ).loc main_arg1))) (normCol (srcOf (m ((c : Thread nD τ).loc main_arg1))) (dstOf (m ((c : Thread nD τ).loc main_arg1))))) := by
  refine (ops1_agg (W4 m ρ c)).trans ?_
  rw [w4_v31, at4 m ρ c main_v3 v3_mem, at4 m ρ c main_v6 v6_mem, at4 m ρ c main_v30 v30_mem, w3_v3, w3_v6, w3_v30]

/-- … and the first bias as a row. -/
theorem w5_v44 : W5 m ρ c (Proc.devRef .tc main_v44) = (shapeCast _ (m ((c : Thread nD τ).loc main_arg3)) shapeCasts_S16_S1x16) := by
  refine (ops1_row (W4 m ρ c)).trans ?_
  rw [at4 m ρ c main_arg3 a3_mem, w3_param m ρ c main_arg3 p3_mem]

/-- Region 1 leaves the first layer's features. -/
theorem w6_v45 : W6 m ρ c (Proc.devRef .tc main_v45) = (act16 (agg16 (lin1 (m ((c : Thread nD τ).loc main_arg0)) (m ((c : Thread nD τ).loc main_arg2))) (srcOf (m ((c : Thread nD τ).loc main_arg1))) (dstOf (m ((c : Thread nD τ).loc main_arg1))) (normCol (srcOf (m ((c : Thread nD τ).loc main_arg1))) (dstOf (m ((c : Thread nD τ).loc main_arg1))))) (shapeCast _ (m ((c : Thread nD τ).loc main_arg3)) shapeCasts_S16_S1x16)) := by
  refine (W6_arr m ρ c 2).trans ((final1 (V5 m ρ) c row16 bcast_S_S100000x16).trans ?_)
  show act16 (W5 m ρ c (Proc.devRef .tc main_v43)) (W5 m ρ c (Proc.devRef .tc main_v44)) = _
  rw [w5_v43, w5_v44]

/-! ### Layer 2 -/

/-- Region 2 leaves h1 · W2. -/
theorem w7_v46 : W7 m ρ c (Proc.devRef .tc main_v46) = (lin2 (act16 (agg16 (lin1 (m ((c : Thread nD τ).loc main_arg0)) (m ((c : Thread nD τ).loc main_arg2))) (srcOf (m ((c : Thread nD τ).loc main_arg1))) (dstOf (m ((c : Thread nD τ).loc main_arg1))) (normCol (srcOf (m ((c : Thread nD τ).loc main_arg1))) (dstOf (m ((c : Thread nD τ).loc main_arg1))))) (shapeCast _ (m ((c : Thread nD τ).loc main_arg3)) shapeCasts_S16_S1x16)) (m ((c : Thread nD τ).loc main_arg4))) := by
  refine (W7_arr m ρ c 2).trans ((final2 (V6 m ρ) c).trans ?_)
  show lin2 (W6 m ρ c (Proc.devRef .tc main_v45)) (W6 m ρ c (Proc.devRef .tc main_arg4)) = _
  rw [w6_v45, at6 m ρ c main_arg4 a4_mem, w3_param m ρ c main_arg4 p4_mem]

theorem w8_v58 : W8 m ρ c (Proc.devRef .tc main_v58) = (agg32 (lin2 (act16 (agg16 (lin1 (m ((c : Thread nD τ).loc main_arg0)) (m ((c : Thread nD τ).loc main_arg2))) (srcOf (m ((c : Thread nD τ).loc main_arg1))) (dstOf (m ((c : Thread nD τ).loc main_arg1))) (normCol (srcOf (m ((c : Thread nD τ).loc main_arg1))) (dstOf (m ((c : Thread nD τ).loc main_arg1))))) (shapeCast _ (m ((c : Thread nD τ).loc main_arg3)) shapeCasts_S16_S1x16)) (m ((c : Thread nD τ).loc main_arg4))) (srcOf (m ((c : Thread nD τ).loc main_arg1))) (dstOf (m ((c : Thread nD τ).loc main_arg1))) (normCol (srcOf (m ((c : Thread nD τ).loc main_arg1))) (dstOf (m ((c : Thread nD τ).loc main_arg1))))) := by
  refine (ops3_agg (W7 m ρ c)).trans ?_
  rw [w7_v46, at7 m ρ c main_v3 v3_mem, at7 m ρ c main_v6 v6_mem, at7 m ρ c main_v30 v30_mem, w3_v3, w3_v6, w3_v30]

theorem w8_v59 : W8 m ρ c (Proc.devRef .tc main_v59) = (shapeCast _ (m ((c : Thread nD τ).loc main_arg5)) shapeCasts_S32_S1x32) := by
  refine (ops3_row (W7 m ρ c)).trans ?_
  rw [at7 m ρ c main_arg5 a5_mem, w3_param m ρ c main_arg5 p5_mem]

/-- Region 3 leaves the second layer's features. -/
theorem w9_v60 : W9 m ρ c (Proc.devRef .tc main_v60) = (act32 (agg32 (lin2 (act16 (agg16 (lin1 (m ((c : Thread nD τ).loc main_arg0)) (m ((c : Thread nD τ).loc main_arg2))) (srcOf (m ((c : Thread nD τ).loc main_arg1))) (dstOf (m ((c : Thread nD τ).loc main_arg1))) (normCol (srcOf (m ((c : Thread nD τ).loc main_arg1))) (dstOf (m ((c : Thread nD τ).loc main_arg1))))) (shapeCast _ (m ((c : Thread nD τ).loc main_arg3)) shapeCasts_S16_S1x16)) (m ((c : Thread nD τ).loc main_arg4))) (srcOf (m ((c : Thread nD τ).loc main_arg1))) (dstOf (m ((c : Thread nD τ).loc main_arg1))) (normCol (srcOf (m ((c : Thread nD τ).loc main_arg1))) (dstOf (m ((c : Thread nD τ).loc main_arg1))))) (shapeCast _ (m ((c : Thread nD τ).loc main_arg5)) shapeCasts_S32_S1x32)) := by
  refine (W9_arr m ρ c 2).trans ((final3 (V8 m ρ) c row32 bcast_S_S100000x32).trans ?_)
  show act32 (W8 m ρ c (Proc.devRef .tc main_v58)) (W8 m ρ c (Proc.devRef .tc main_v59)) = _
  rw [w8_v58, w8_v59]

/-! ### Layer 3 -/

/-- Region 4 leaves h2 · W3. -/
theorem w10_v61 : W10 m ρ c (Proc.devRef .tc main_v61) = (lin3 (act32 (agg32 (lin2 (act16 (agg16 (lin1 (m ((c : Thread nD τ).loc main_arg0)) (m ((c : Thread nD τ).loc main_arg2))) (srcOf (m ((c : Thread nD τ).loc main_arg1))) (dstOf (m ((c : Thread nD τ).loc main_arg1))) (normCol (srcOf (m ((c : Thread nD τ).loc main_arg1))) (dstOf (m ((c : Thread nD τ).loc main_arg1))))) (shapeCast _ (m ((c : Thread nD τ).loc main_arg3)) shapeCasts_S16_S1x16)) (m ((c : Thread nD τ).loc main_arg4))) (srcOf (m ((c : Thread nD τ).loc main_arg1))) (dstOf (m ((c : Thread nD τ).loc main_arg1))) (normCol (srcOf (m ((c : Thread nD τ).loc main_arg1))) (dstOf (m ((c : Thread nD τ).loc main_arg1))))) (shapeCast _ (m ((c : Thread nD τ).loc main_arg5)) shapeCasts_S32_S1x32)) (m ((c : Thread nD τ).loc main_arg6))) := by
  refine (W10_arr m ρ c 2).trans ((final4 (V9 m ρ) c).trans ?_)
  show lin3 (W9 m ρ c (Proc.devRef .tc main_v60)) (W9 m ρ c (Proc.devRef .tc main_arg6)) = _
  rw [w9_v60, at9 m ρ c main_arg6 a6_mem, w3_param m ρ c main_arg6 p6_mem]

theorem w11_v73 : W11 m ρ c (Proc.devRef .tc main_v73) = (agg64 (lin3 (act32 (agg32 (lin2 (act16 (agg16 (lin1 (m ((c : Thread nD τ).loc main_arg0)) (m ((c : Thread nD τ).loc main_arg2))) (srcOf (m ((c : Thread nD τ).loc main_arg1))) (dstOf (m ((c : Thread nD τ).loc main_arg1))) (normCol (srcOf (m ((c : Thread nD τ).loc main_arg1))) (dstOf (m ((c : Thread nD τ).loc main_arg1))))) (shapeCast _ (m ((c : Thread nD τ).loc main_arg3)) shapeCasts_S16_S1x16)) (m ((c : Thread nD τ).loc main_arg4))) (srcOf (m ((c : Thread nD τ).loc main_arg1))) (dstOf (m ((c : Thread nD τ).loc main_arg1))) (normCol (srcOf (m ((c : Thread nD τ).loc main_arg1))) (dstOf (m ((c : Thread nD τ).loc main_arg1))))) (shapeCast _ (m ((c : Thread nD τ).loc main_arg5)) shapeCasts_S32_S1x32)) (m ((c : Thread nD τ).loc main_arg6))) (srcOf (m ((c : Thread nD τ).loc main_arg1))) (dstOf (m ((c : Thread nD τ).loc main_arg1))) (normCol (srcOf (m ((c : Thread nD τ).loc main_arg1))) (dstOf (m ((c : Thread nD τ).loc main_arg1))))) := by
  refine (ops5_agg (W10 m ρ c)).trans ?_
  rw [w10_v61, at10 m ρ c main_v3 v3_mem, at10 m ρ c main_v6 v6_mem, at10 m ρ c main_v30 v30_mem, w3_v3, w3_v6, w3_v30]

theorem w11_v74 : W11 m ρ c (Proc.devRef .tc main_v74) = (shapeCast _ (m ((c : Thread nD τ).loc main_arg7)) shapeCasts_S64_S1x64) := by
  refine (ops5_row (W10 m ρ c)).trans ?_
  rw [at10 m ρ c main_arg7 a7_mem, w3_param m ρ c main_arg7 p7_mem]

/-- **The kernel program's result**: the last boundary's contents at the result buffer are the network of the launch
    contents of the arguments. -/
theorem result : W12 m ρ c (Proc.devRef .tc main_v75)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W12_arr m ρ c 2).trans ((final5 (V11 m ρ) c row64).trans ?_)
  show bias64 (W11 m ρ c (Proc.devRef .tc main_v73)) (W11 m ρ c (Proc.devRef .tc main_v74)) = _
  rw [w11_v73, w11_v74]
  rfl

end Cert.KernelIdeal.Net

end
-- ==== Proof.ReferenceEdges.lean ====
/-
  The graph side of the three-layer graph convolution, as named functions of the edge list (the reference program's spelling).

  The edge list `ei` has a row of source nodes and a row of target nodes; every node is appended once to both rows
  (the self loops). A node's degree is the number of edges that end in it; the weight of an edge is
  d(source)^(-1/2) · d(target)^(-1/2), with d^(-1/2) read as 0 where d is not positive. One layer's aggregation takes a
  node-feature array `h`, gathers the row of each edge's source, multiplies it by the edge's weight and adds it into
  the row of the edge's target. Row numbers are signed words: a negative one is first shifted up by the node count.
-/
import proofs.«155101_j19344532701547_1_alg».proof.Proof.Gen.ReferenceIdeal

noncomputable section

namespace Cert.ReferenceIdeal.Net

open Idealize.ShloMosaic Cert.ReferenceIdeal Cert.ReferenceIdeal.Gen

variable {F : FTy → Type} [FloatOps F]

/-- The source node of every edge, then every node once. -/
def srcOf (ei : (⟨S2x3200000, .i32⟩ : BufTy).Contents (Elt F)) : (⟨S3300000, .i32⟩ : BufTy).Contents (Elt F) :=
  concatenate S3300000 0 [⟨S3200000, shapeCast _ (extractStridedSlice S1x3200000 ![0, 0] ei slices_S2x3200000_S1x3200000_0_0) shapeCasts_S1x3200000_S3200000⟩, ⟨S100000, iotaInDim S100000 32 0⟩] concatenates_S3200000_S100000_S3300000_d0

/-- The target node of every edge, then every node once. -/
def dstOf (ei : (⟨S2x3200000, .i32⟩ : BufTy).Contents (Elt F)) : (⟨S3300000, .i32⟩ : BufTy).Contents (Elt F) :=
  concatenate S3300000 0 [⟨S3200000, shapeCast _ (extractStridedSlice S1x3200000 ![1, 0] ei slices_S2x3200000_S1x3200000_1_0) shapeCasts_S1x3200000_S3200000⟩, ⟨S100000, iotaInDim S100000 32 0⟩] concatenates_S3200000_S100000_S3300000_d0

/-- Signed row numbers as a column, the negative ones shifted up by the node count. -/
def rowCol (v : (⟨S3300000, .i32⟩ : BufTy).Contents (Elt F)) : (⟨S3300000x1, .i32⟩ : BufTy).Contents (Elt F) :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- Every node's degree: a one added into the target of every edge. -/
def degOf (dst : (⟨S3300000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant (F := F) S_ .f32 0x00000000#32))
    (broadcastInDim S3300000x1 ![0] bcast_S3300000_S3300000x1_0 dst)
    (broadcastInDim S3300000 ![] bcast_S_S3300000 (constant (F := F) S_ .f32 0x3F800000#32))

/-- d^(-1/2) where the degree d is positive, 0 elsewhere. -/
def dinvOf (dst : (⟨S3300000, .i32⟩ : BufTy).Contents (Elt F)) : (⟨S100000, .f32⟩ : BufTy).Contents (Elt F) :=
  select (cmpf (F := F) .ogt (degOf dst) (broadcastInDim S100000 ![] bcast_S_S100000 (constant (F := F) S_ .f32 0x00000000#32)))
    (Host.rsqrt (degOf dst))
    (broadcastInDim S100000 ![] bcast_S_S100000 (id (constant (F := F) S_ .f32 0x00000000#32)))

/-- The edge weights d(source)^(-1/2) · d(target)^(-1/2), as a column. -/
def normCol (src dst : (⟨S3300000, .i32⟩ : BufTy).Contents (Elt F)) : (⟨S3300000x1, .f32⟩ : BufTy).Contents (Elt F) :=
  broadcastInDim S3300000x1 ![0] bcast_S3300000_S3300000x1_0
    (mulf (Host.gather gather_S100000_S3300000x1_S3300000_n_0_n_n_0_1_1 (dinvOf dst) (rowCol src))
      (Host.gather gather_S100000_S3300000x1_S3300000_n_0_n_n_0_1_1 (dinvOf dst) (rowCol dst)))

/-- One layer's aggregation at width 16: the weighted source rows summed into the target rows. -/
def agg16 (h : (⟨S100000x16, .f32⟩ : BufTy).Contents (Elt F)) (src dst : (⟨S3300000, .i32⟩ : BufTy).Contents (Elt F))
    (nc : (⟨S3300000x1, .f32⟩ : BufTy).Contents (Elt F)) : (⟨S100000x16, .f32⟩ : BufTy).Contents (Elt F) :=
  Host.scatterAdd scatter_S100000x16_S3300000x1_S3300000x16_1_0_0_1
    (broadcastInDim S100000x16 ![] bcast_S_S100000x16 (constant (F := F) S_ .f32 0x00000000#32))
    (broadcastInDim S3300000x1 ![0] bcast_S3300000_S3300000x1_0 dst)
    (mulf (Host.gather gather_S100000x16_S3300000x1_S3300000x16_1_0_n_n_0_1_116 h (rowCol src))
      (broadcastInDim S3300000x16 ![0, 1] bcast_S3300000x1_S3300000x16_0_1 nc))

/-- One layer's aggregation at width 32: the weighted source rows summed into the target rows. -/
def agg32 (h : (⟨S100000x32, .f32⟩ : BufTy).Contents (Elt F)) (src dst : (⟨S3300000, .i32⟩ : BufTy).Contents (Elt F))
    (nc : (⟨S3300000x1, .f32⟩ : BufTy).Contents (Elt F)) : (⟨S100000x32, .f32⟩ : BufTy).Contents (Elt F) :=
  Host.scatterAdd scatter_S100000x32_S3300000x1_S3300000x32_1_0_0_1
    (broadcastInDim S100000x32 ![] bcast_S_S100000x32 (constant (F := F) S_ .f32 0x00000000#32))
    (broadcastInDim S3300000x1 ![0] bcast_S3300000_S3300000x1_0 dst)
    (mulf (Host.gather gather_S100000x32_S3300000x1_S3300000x32_1_0_n_n_0_1_132 h (rowCol src))
      (broadcastInDim S3300000x32 ![0, 1] bcast_S3300000x1_S3300000x32_0_1 nc))

/-- One layer's aggregation at width 64: the weighted source rows summed into the target rows. -/
def agg64 (h : (⟨S100000x64, .f32⟩ : BufTy).Contents (Elt F)) (src dst : (⟨S3300000, .i32⟩ : BufTy).Contents (Elt F))
    (nc : (⟨S3300000x1, .f32⟩ : BufTy).Contents (Elt F)) : (⟨S100000x64, .f32⟩ : BufTy).Contents (Elt F) :=
  Host.scatterAdd scatter_S100000x64_S3300000x1_S3300000x64_1_0_0_1
    (broadcastInDim S100000x64 ![] bcast_S_S100000x64 (constant (F := F) S_ .f32 0x00000000#32))
    (broadcastInDim S3300000x1 ![0] bcast_S3300000_S3300000x1_0 dst)
    (mulf (Host.gather gather_S100000x64_S3300000x1_S3300000x64_1_0_n_n_0_1_164 h (rowCol src))
      (broadcastInDim S3300000x64 ![0, 1] bcast_S3300000x1_S3300000x64_0_1 nc))

end Cert.ReferenceIdeal.Net

end
-- ==== Proof.ReferenceNet.lean ====
/-
  The reference program's result as the three-layer graph convolution of its arguments.

  Layer k maps node features h to the aggregation of h·W_k plus the bias b_k on every row; the first two layers are
  rectified against 0. The edge structure (sources, targets, weights) is the same function of the edge list in every
  layer. The reference's run ends with its result buffer at exactly this composition of host operations.
-/
import proofs.«155101_j19344532701547_1_alg».proof.Proof.ReferenceEdges
import proofs.«155101_j19344532701547_1_alg».proof.Proof.ReferenceRun

noncomputable section

namespace Cert.ReferenceIdeal.Net

open Idealize.ShloMosaic Idealize.ShloMosaic.TcCoe Idealize.SL.Sem Cert.ReferenceIdeal Cert.ReferenceIdeal.Gen

variable {F : FTy → Type} [FloatOps F]

/-- Layer 1 (11 → 16 features): aggregate x·W, add the bias row, rectify. -/
def layer1 (x : (⟨S100000x11, .f32⟩ : BufTy).Contents (Elt F)) (src dst : (⟨S3300000, .i32⟩ : BufTy).Contents (Elt F))
    (nc : (⟨S3300000x1, .f32⟩ : BufTy).Contents (Elt F)) (W : (⟨S11x16, .f32⟩ : BufTy).Contents (Elt F))
    (b : (⟨S16, .f32⟩ : BufTy).Contents (Elt F)) : (⟨S100000x16, .f32⟩ : BufTy).Contents (Elt F) :=
  maximumf (addf (agg16 (Host.dotGeneral dot_S100000x11_S11x16_S100000x16_1_0_0_1_n_n none x W) src dst nc)
      (broadcastInDim S100000x16 ![0, 1] bcast_S1x16_S100000x16_0_1 (broadcastInDim S1x16 ![1] bcast_S16_S1x16_1 b)))
    (broadcastInDim S100000x16 ![] bcast_S_S100000x16 (constant (F := F) S_ .f32 0x00000000#32))

/-- Layer 2 (16 → 32 features): aggregate h·W, add the bias row, rectify. -/
def layer2 (h : (⟨S100000x16, .f32⟩ : BufTy).Contents (Elt F)) (src dst : (⟨S3300000, .i32⟩ : BufTy).Contents (Elt F))
    (nc : (⟨S3300000x1, .f32⟩ : BufTy).Contents (Elt F)) (W : (⟨S16x32, .f32⟩ : BufTy).Contents (Elt F))
    (b : (⟨S32, .f32⟩ : BufTy).Contents (Elt F)) : (⟨S100000x32, .f32⟩ : BufTy).Contents (Elt F) :=
  maximumf (addf (agg32 (Host.dotGeneral dot_S100000x16_S16x32_S100000x32_1_0_0_1_n_n none h W) src dst nc)
      (broadcastInDim S100000x32 ![0, 1] bcast_S1x32_S100000x32_0_1 (broadcastInDim S1x32 ![1] bcast_S32_S1x32_1 b)))
    (broadcastInDim S100000x32 ![] bcast_S_S100000x32 (constant (F := F) S_ .f32 0x00000000#32))

/-- Layer 3 (32 → 64 features): aggregate h·W and add the bias row. -/
def layer3 (h : (⟨S100000x32, .f32⟩ : BufTy).Contents (Elt F)) (src dst : (⟨S3300000, .i32⟩ : BufTy).Contents (Elt F))
    (nc : (⟨S3300000x1, .f32⟩ : BufTy).Contents (Elt F)) (W : (⟨S32x64, .f32⟩ : BufTy).Contents (Elt F))
    (b : (⟨S64, .f32⟩ : BufTy).Contents (Elt F)) : (⟨S100000x64, .f32⟩ : BufTy).Contents (Elt F) :=
  addf (agg64 (Host.dotGeneral dot_S100000x32_S32x64_S100000x64_1_0_0_1_n_n none h W) src dst nc)
    (broadcastInDim S100000x64 ![0, 1] bcast_S1x64_S100000x64_0_1 (broadcastInDim S1x64 ![1] bcast_S64_S1x64_1 b))

/-- The three layers over one edge list. -/
def net (x : (⟨S100000x11, .f32⟩ : BufTy).Contents (Elt F)) (ei : (⟨S2x3200000, .i32⟩ : BufTy).Contents (Elt F))
    (W1 : (⟨S11x16, .f32⟩ : BufTy).Contents (Elt F)) (b1 : (⟨S16, .f32⟩ : BufTy).Contents (Elt F))
    (W2 : (⟨S16x32, .f32⟩ : BufTy).Contents (Elt F)) (b2 : (⟨S32, .f32⟩ : BufTy).Contents (Elt F))
    (W3 : (⟨S32x64, .f32⟩ : BufTy).Contents (Elt F)) (b3 : (⟨S64, .f32⟩ : BufTy).Contents (Elt F)) :
    (⟨S100000x64, .f32⟩ : BufTy).Contents (Elt F) :=
  layer3 (layer2 (layer1 x (srcOf ei) (dstOf ei) (normCol (srcOf ei) (dstOf ei)) W1 b1)
      (srcOf ei) (dstOf ei) (normCol (srcOf ei) (dstOf ei)) W2 b2)
    (srcOf ei) (dstOf ei) (normCol (srcOf ei) (dstOf ei)) W3 b3

set_option maxRecDepth 16384 in
set_option maxHeartbeats 4000000 in
/-- The run's result term is the network of the launch contents of the arguments. -/
theorem res_eq (m : (ℓ : Loc nD τ sig) → Buf (Elt F) ℓ) (c : Dev nD) :
    Value.res_main_v142 m c
      = net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Value.res_main_v142 net layer3 layer2 layer1 agg64 agg32 agg16 normCol dinvOf degOf rowCol srcOf dstOf
  rfl

end Cert.ReferenceIdeal.Net

end
-- ==== Proof.Bridge.lean ====
/-
  The kernel program's network and the reference's are one function of the arguments.

  Both are the same composition of host operations over the same edge structure: each layer multiplies by its weight
  matrix, aggregates along the edges, adds its bias on every row, and (in the first two layers) rectifies. The two
  spellings differ in one place only: the kernel program lays the bias out as a one-row array by a reshape, the
  reference by placing the vector along the second axis of the one-row shape; both hold the vector's entry c at (0, c).
-/
import proofs.«155101_j19344532701547_1_alg».proof.Proof.KernelNet
import proofs.«155101_j19344532701547_1_alg».proof.Proof.ReferenceNet
import Idealize.ShloMosaic.Lib.Pipeline.Value
import Idealize.ShloMosaic.Lib.ValueIdx
import Idealize.ShloMosaic.Lib.ValueLayout

set_option maxRecDepth 16384

noncomputable section

namespace Cert.Bridge

open Idealize.ShloMosaic Idealize.ShloMosaic.ValueIdx

/-- A vector recast as a one-row array is the vector placed along the second axis of the one-row shape. -/
theorem row_eq {n : ℕ} {α : Type} (x : (⟨1, ![n]⟩ : Shape).Idx → α) (hs : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ x hs = broadcastInDim ⟨2, ![1, n]⟩ ![1] hb x := by
  funext i
  obtain ⟨u, q, rfl⟩ : ∃ (u : Fin 1) (q : Fin n), i = ix2 u q := ⟨i 0, i 1, eq_ix2 i⟩
  rw [shapeCast_a_1a_apply]
  refine (broadcastInDim_apply _ hb x (ix2 u q) (ix1 q) (fun a => ?_)).symm
  match a with
  | ⟨0, _⟩ =>
    show q.val = if n = 1 then 0 else q.val
    split
    · have := q.isLt; omega
    · rfl

variable {F : FTy → Type} [FloatOps F]

/-- The two networks agree on every argument. -/
theorem net_eq (x : (⟨Cert.KernelIdeal.S100000x11, .f32⟩ : BufTy).Contents (Elt F)) (ei : (⟨Cert.KernelIdeal.S2x3200000, .i32⟩ : BufTy).Contents (Elt F))
    (W1 : (⟨Cert.KernelIdeal.S11x16, .f32⟩ : BufTy).Contents (Elt F)) (b1 : (⟨Cert.KernelIdeal.S16, .f32⟩ : BufTy).Contents (Elt F)) (W2 : (⟨Cert.KernelIdeal.S16x32, .f32⟩ : BufTy).Contents (Elt F)) (b2 : (⟨Cert.KernelIdeal.S32, .f32⟩ : BufTy).Contents (Elt F))
    (W3 : (⟨Cert.KernelIdeal.S32x64, .f32⟩ : BufTy).Contents (Elt F)) (b3 : (⟨Cert.KernelIdeal.S64, .f32⟩ : BufTy).Contents (Elt F)) :
    Cert.KernelIdeal.Net.net x ei W1 b1 W2 b2 W3 b3 = Cert.ReferenceIdeal.Net.net x ei W1 b1 W2 b2 W3 b3 := by
  have e1 : shapeCast Cert.KernelIdeal.S1x16 b1 Cert.KernelIdeal.Gen.shapeCasts_S16_S1x16
      = broadcastInDim Cert.ReferenceIdeal.S1x16 ![1] Cert.ReferenceIdeal.Gen.bcast_S16_S1x16_1 b1 := row_eq (n := 16) b1 _ _
  have e2 : shapeCast Cert.KernelIdeal.S1x32 b2 Cert.KernelIdeal.Gen.shapeCasts_S32_S1x32
      = broadcastInDim Cert.ReferenceIdeal.S1x32 ![1] Cert.ReferenceIdeal.Gen.bcast_S32_S1x32_1 b2 := row_eq (n := 32) b2 _ _
  have e3 : shapeCast Cert.KernelIdeal.S1x64 b3 Cert.KernelIdeal.Gen.shapeCasts_S64_S1x64
      = broadcastInDim Cert.ReferenceIdeal.S1x64 ![1] Cert.ReferenceIdeal.Gen.bcast_S64_S1x64_1 b3 := row_eq (n := 64) b3 _ _
  unfold Cert.KernelIdeal.Net.net
  rw [e1, e2, e3]
  rfl

end Cert.Bridge

end
-- ==== Proof.lean ====
/-
  The certificate of a three-layer graph convolution: a kernel program of six pipelined regions among host operations
  against a reference of host operations only.

  Each layer maps node features h to  Â · (h W) + b, where Â is the adjacency with self loops, normalised on both sides
  by d^(-1/2) of the degree d (read as 0 where d is not positive); the first two layers are rectified against 0. The
  kernel program computes the edge structure once and runs every product h W and every bias stage as a pipelined
  region tiled in 20 row blocks; the reference recomputes the edge structure per layer and uses the host's product,
  sum and maximum. Over the extended reals a row-tiled product is the host's plain product of the whole arrays
  (entry (r, j) of both is the sum over c of A[r,c] · B[c,j]), a row-tiled bias stage is the host's row addition, and
  every other operation is the same host operation on both sides, so the two results are one function of the
  arguments. No law that needs finite operands is used: the precondition is never opened.

  The three frames are the generated frame runs (the reference's is its run with the result dropped); the
  idealization rewrote nothing, so that conjunct is trivial.
-/
import proofs.«155101_j19344532701547_1_alg».proof.Defs
import proofs.«155101_j19344532701547_1_alg».proof.Proof.Gen.Kernel
import proofs.«155101_j19344532701547_1_alg».proof.Proof.Gen.Kernel.Frame
import proofs.«155101_j19344532701547_1_alg».proof.Proof.Gen.KernelIdeal
import proofs.«155101_j19344532701547_1_alg».proof.Proof.Gen.KernelIdeal.Frame
import proofs.«155101_j19344532701547_1_alg».proof.Proof.Gen.ReferenceIdeal
import proofs.«155101_j19344532701547_1_alg».proof.Proof.Gen.Pre_finite_inputs
import proofs.«155101_j19344532701547_1_alg».proof.Proof.KernelRun
import proofs.«155101_j19344532701547_1_alg».proof.Proof.ReferenceRun
import proofs.«155101_j19344532701547_1_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network of the (agreeing) arguments in their result arrays. -/
theorem algebraic : Cert.algebraic_KernelIdeal_ReferenceIdeal := by
  intro m ρ m' ρ' _ hagree
  refine ⟨fun c => Cert.KernelIdeal.Net.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Net.result m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Net.res_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact (Cert.Bridge.net_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
